-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x32 : Shape := ⟨2, ![128, 32]⟩
abbrev S1x32 : Shape := ⟨2, ![1, 32]⟩
abbrev S1600000 : Shape := ⟨1, ![1600000]⟩
abbrev S50000x32 : Shape := ⟨2, ![50000, 32]⟩
abbrev S_ : Shape := ⟨0, ![]⟩
abbrev S50000 : Shape := ⟨1, ![50000]⟩
abbrev S1600000x1 : Shape := ⟨2, ![1600000, 1]⟩

class Facts : Prop where
  bcast_S1x32_S50000x32_0_1 : S1x32.BroadcastsInDim S50000x32 (![0, 1] : Fin 2 → Fin S50000x32.rank)
  reducesTo_S50000x32_S50000_d1 : S50000x32.ReducesTo [1] S50000
  h_S_ : 0 < S_.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  reducesTo_S50000x128_S_d0_1 : S50000x128.ReducesTo [0, 1] S_
  bcast_S_S128x32 : S_.BroadcastsInDim S128x32 (![] : Fin 0 → Fin S128x32.rank)
  reducesTo_S128x32_S_d0_1 : S128x32.ReducesTo [0, 1] S_
  bcast_S_S1x32 : S_.BroadcastsInDim S1x32 (![] : Fin 0 → Fin S1x32.rank)
  reducesTo_S1x32_S_d0_1 : S1x32.ReducesTo [0, 1] S_
  reducesTo_S1600000_S_d0 : S1600000.ReducesTo [0] S_
  dot_S50000x128_S128x32_S50000x32_1_0_0_1_n_n_wf : DotDims.WF S50000x128 S128x32 S50000x32 [1] [0] [0] [1] [] []
  gather_S50000_S1600000x1_S1600000_n_0_n_n_0_1_1_wf : GatherDims.WF S50000 S1600000x1 S1600000 [] [0] [] [0] [] 1 ![1]

variable [Facts]

def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def fn_part2 {F : FTy → Type} [FloatOps F] (main_arg2 : FVec F S1x32 .f32) (main_arg3 : FVec F S1x32 .f32) (main_v26 : FVec F S1600000 .f32) (main_v35 : IVec S_ 1) : IVec S_ 1 :=
  let main_v36 : FVec F S1x32 .f32 := Host.absf main_arg2
  let main_cst_10 : FVec F S_ .f32 := constant S_ .f32 0x7F800000#32
  let main_v37 : FVec F S1x32 .f32 := broadcastInDim S1x32 ![] bcast_S_S1x32 main_cst_10
  let main_v38 : IVec S1x32 1 := cmpf .olt main_v36 main_v37
  let main_c_11 : IVec S_ 1 := constantI S_ 1 1#1
  let main_v39 : IVec S_ 1 := (fun x v => Host.reduce IntOp.andi x v reducesTo_S1x32_S_d0_1 h_S_) main_v38 main_c_11
  let main_v40 : IVec S_ 1 := andi main_v35 main_v39
  let main_v41 : FVec F S1x32 .f32 := Host.absf main_arg3
  let main_cst_12 : FVec F S_ .f32 := constant S_ .f32 0x7F800000#32
  let main_v42 : FVec F S1x32 .f32 := broadcastInDim S1x32 ![] bcast_S_S1x32 main_cst_12
  let main_v43 : IVec S1x32 1 := cmpf .olt main_v41 main_v42
  let main_c_13 : IVec S_ 1 := constantI S_ 1 1#1
  let main_v44 : IVec S_ 1 := (fun x v => Host.reduce IntOp.andi x v reducesTo_S1x32_S_d0_1 h_S_) main_v43 main_c_13
  let main_v45 : IVec S_ 1 := andi main_v40 main_v44
  let main_cst_14 : FVec F S_ .f32 := constant S_ .f32 0xFF800000#32
  let main_v46 : FVec F S_ .f32 := (fun x v => Host.reduce FloatOps.maximumf x v reducesTo_S1600000_S_d0 h_S_) main_v26 main_cst_14
  let main_cst_15 : FVec F S_ .f32 := constant S_ .f32 0x7F800000#32
  let main_v47 : FVec F S_ .f32 := (fun x v => Host.reduce FloatOps.minimumf x v reducesTo_S1600000_S_d0 h_S_) main_v26 main_cst_15
  let main_v48 : IVec S_ 1 := cmpf .une main_v46 main_v47
  let main_v49 : IVec S_ 1 := andi main_v45 main_v48
  main_v49

def fn_part1 {F : FTy → Type} [FloatOps F] (main_arg0 : FVec F S50000x128 .f32) (main_arg1 : FVec F S128x32 .f32) (main_arg2 : FVec F S1x32 .f32) (main_arg3 : FVec F S1x32 .f32) (main_arg5 : IVec S1600000 32) (main_v6 : FVec F S50000 .f32) (main_v13 : FVec F S1600000 .f32) (main_v15 : IVec S1600000 1) (main_v17 : IVec S1600000 32) : IVec S_ 1 :=
  let main_v18 : IVec S1600000 32 := select main_v15 main_v17 main_arg5
  let main_v19 : IVec S1600000x1 32 := broadcastInDim S1600000x1 ![0] bcast_S1600000_S1600000x1_0 main_v18
  let main_v20 : FVec F S1600000 .f32 := (fun x i => Host.gather gather_S50000_S1600000x1_S1600000_n_0_n_n_0_1_1 x i) main_v6 main_v19
  let main_v21 : FVec F S1600000 .f32 := addf main_v13 main_v20
  let main_cst_4 : FVec F S_ .f32 := constant S_ .f32 0x00000000#32
  let main_v22 : FVec F S1600000 .f32 := broadcastInDim S1600000 ![] bcast_S_S1600000 main_cst_4
  let main_v23 : IVec S1600000 1 := cmpf .oge main_v21 main_v22
  let main_cst_5 : FVec F S_ .f32 := constant S_ .f32 0x3E4CCCCD#32
  let main_v24 : FVec F S1600000 .f32 := broadcastInDim S1600000 ![] bcast_S_S1600000 main_cst_5
  let main_v25 : FVec F S1600000 .f32 := mulf main_v24 main_v21
  let main_v26 : FVec F S1600000 .f32 := select main_v23 main_v21 main_v25
  let main_v27 : FVec F S50000x128 .f32 := Host.absf main_arg0
  let main_cst_6 : FVec F S_ .f32 := constant S_ .f32 0x7F800000#32
  let main_v28 : FVec F S50000x128 .f32 := broadcastInDim S50000x128 ![] bcast_S_S50000x128 main_cst_6
  let main_v29 : IVec S50000x128 1 := cmpf .olt main_v27 main_v28
  let main_c_7 : IVec S_ 1 := constantI S_ 1 1#1
  let main_v30 : IVec S_ 1 := (fun x v => Host.reduce IntOp.andi x v reducesTo_S50000x128_S_d0_1 h_S_) main_v29 main_c_7
  let main_v31 : FVec F S128x32 .f32 := Host.absf main_arg1
  let main_cst_8 : FVec F S_ .f32 := constant S_ .f32 0x7F800000#32
  let main_v32 : FVec F S128x32 .f32 := broadcastInDim S128x32 ![] bcast_S_S128x32 main_cst_8
  let main_v33 : IVec S128x32 1 := cmpf .olt main_v31 main_v32
  let main_c_9 : IVec S_ 1 := constantI S_ 1 1#1
  let main_v34 : IVec S_ 1 := (fun x v => Host.reduce IntOp.andi x v reducesTo_S128x32_S_d0_1 h_S_) main_v33 main_c_9
  let main_v35 : IVec S_ 1 := andi main_v30 main_v34
  fn_part2 (F := F) main_arg2 main_arg3 main_v26 main_v35

def fn {F : FTy → Type} [FloatOps F] (main_arg0 : FVec F S50000x128 .f32) (main_arg1 : FVec F S128x32 .f32) (main_arg2 : FVec F S1x32 .f32) (main_arg3 : FVec F S1x32 .f32) (main_arg4 : IVec S1600000 32) (main_arg5 : IVec S1600000 32) : IVec S_ 1 :=
  let main_v0 : FVec F S50000x32 .f32 := (fun l r => Host.dotGeneral dot_S50000x128_S128x32_S50000x32_1_0_0_1_n_n none l r) main_arg0 main_arg1
  let main_v1 : FVec F S50000x32 .f32 := broadcastInDim S50000x32 ![0, 1] bcast_S1x32_S50000x32_0_1 main_arg2
  let main_v2 : FVec F S50000x32 .f32 := mulf main_v0 main_v1
  let main_cst : FVec F S_ .f32 := constant S_ .f32 0x00000000#32
  let main_v3 : FVec F S50000 .f32 := (fun x v => Host.reduceAdd x v reducesTo_S50000x32_S50000_d1 h_S_) main_v2 main_cst
  let main_v4 : FVec F S50000x32 .f32 := broadcastInDim S50000x32 ![0, 1] bcast_S1x32_S50000x32_0_1 main_arg3
  let main_v5 : FVec F S50000x32 .f32 := mulf main_v0 main_v4
  let main_cst_0 : FVec F S_ .f32 := constant S_ .f32 0x00000000#32
  let main_v6 : FVec F S50000 .f32 := (fun x v => Host.reduceAdd x v reducesTo_S50000x32_S50000_d1 h_S_) main_v5 main_cst_0
  let main_c : IVec S_ 32 := constantI S_ 32 0#32
  let main_v7 : IVec S1600000 32 := broadcastInDim S1600000 ![] bcast_S_S1600000 main_c
  let main_v8 : IVec S1600000 1 := cmpi .slt main_arg4 main_v7
  let main_c_1 : IVec S_ 32 := constantI S_ 32 50000#32
  let main_v9 : IVec S1600000 32 := broadcastInDim S1600000 ![] bcast_S_S1600000 main_c_1
  let main_v10 : IVec S1600000 32 := addi main_arg4 main_v9
  let main_v11 : IVec S1600000 32 := select main_v8 main_v10 main_arg4
  let main_v12 : IVec S1600000x1 32 := broadcastInDim S1600000x1 ![0] bcast_S1600000_S1600000x1_0 main_v11
  let main_v13 : FVec F S1600000 .f32 := (fun x i => Host.gather gather_S50000_S1600000x1_S1600000_n_0_n_n_0_1_1 x i) main_v3 main_v12
  let main_c_2 : IVec S_ 32 := constantI S_ 32 0#32
  let main_v14 : IVec S1600000 32 := broadcastInDim S1600000 ![] bcast_S_S1600000 main_c_2
  let main_v15 : IVec S1600000 1 := cmpi .slt main_arg5 main_v14
  let main_c_3 : IVec S_ 32 := constantI S_ 32 50000#32
  let main_v16 : IVec S1600000 32 := broadcastInDim S1600000 ![] bcast_S_S1600000 main_c_3
  let main_v17 : IVec S1600000 32 := addi main_arg5 main_v16
  fn_part1 (F := F) main_arg0 main_arg1 main_arg2 main_arg3 main_arg5 main_v6 main_v13 main_v15 main_v17
-- ==== Kernel.lean ====
abbrev S50000x128 : Shape := ⟨2, ![50000, 128]⟩
abbrev S128x32 : Shape := ⟨2, ![128, 32]⟩
abbrev S1x32 : Shape := ⟨2, ![1, 32]⟩
abbrev S1600000 : Shape := ⟨1, ![1600000]⟩
abbrev S50000x32 : Shape := ⟨2, ![50000, 32]⟩
abbrev S50000x1 : Shape := ⟨2, ![50000, 1]⟩
abbrev S2000x128 : Shape := ⟨2, ![2000, 128]⟩
abbrev S2000x32 : Shape := ⟨2, ![2000, 32]⟩
abbrev S2000x1 : Shape := ⟨2, ![2000, 1]⟩
abbrev S2000 : Shape := ⟨1, ![2000]⟩
abbrev S50000 : Shape := ⟨1, ![50000]⟩
abbrev S_ : Shape := ⟨0, ![]⟩
abbrev S1600000x1 : Shape := ⟨2, ![1600000, 1]⟩
abbrev S1x1 : Shape := ⟨2, ![1, 1]⟩
abbrev S1600000x32 : Shape := ⟨2, ![1600000, 32]⟩
abbrev S4000x1 : Shape := ⟨2, ![4000, 1]⟩
abbrev S4000x32 : Shape := ⟨2, ![4000, 32]⟩

abbrev nBuf : Space → Nat
  | .hbm => 68
  | .vmem => 21
  | .smem => 0
  | _ => 0

abbrev bufTy : (tb : Table) → Fin (tcTables nBuf tb) → BufTy
  | .hbm, ⟨0, _⟩ => ⟨S50000x128, .f32⟩
  | .hbm, ⟨1, _⟩ => ⟨S128x32, .f32⟩
  | .hbm, ⟨2, _⟩ => ⟨S1x32, .f32⟩
  | .hbm, ⟨3, _⟩ => ⟨S1x32, .f32⟩
  | .hbm, ⟨4, _⟩ => ⟨S1600000, .i32⟩
  | .hbm, ⟨5, _⟩ => ⟨S1600000, .i32⟩
  | .hbm, ⟨6, _⟩ => ⟨S50000x32, .f32⟩
  | .hbm, ⟨7, _⟩ => ⟨S50000x1, .f32⟩
  | .hbm, ⟨8, _⟩ => ⟨S50000x1, .f32⟩
  | .hbm, ⟨9, _⟩ => ⟨S50000, .f32⟩
  | .hbm, ⟨10, _⟩ => ⟨S50000, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000, .f32⟩
  | .hbm, ⟨29, _⟩ => ⟨S1600000, .f32⟩
  | .hbm, ⟨30, _⟩ => ⟨S_, .f32⟩
  | .hbm, ⟨31, _⟩ => ⟨S_, .f32⟩
  | .hbm, ⟨32, _⟩ => ⟨S1600000, .f32⟩
  | .hbm, ⟨33, _⟩ => ⟨S1600000, .i1⟩
  | .hbm, ⟨34, _⟩ => ⟨S_, .f32⟩
  | .hbm, ⟨35, _⟩ => ⟨S1600000, .f32⟩
  | .hbm, ⟨36, _⟩ => ⟨S1600000, .f32⟩
  | .hbm, ⟨37, _⟩ => ⟨S1600000, .f32⟩
  | .hbm, ⟨38, _⟩ => ⟨S_, .f32⟩
  | .hbm, ⟨39, _⟩ => ⟨S_, .f32⟩
  | .hbm, ⟨40, _⟩ => ⟨S1x1, .f32⟩
  | .hbm, ⟨41, _⟩ => ⟨S_, .f32⟩
  | .hbm, ⟨42, _⟩ => ⟨S_, .f32⟩
  | .hbm, ⟨43, _⟩ => ⟨S1x1, .f32⟩
  | .hbm, ⟨44, _⟩ => ⟨S1600000x1, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x32, .f32⟩
  | .hbm, ⟨54, _⟩ => ⟨S1600000x1, .f32⟩
  | .hbm, ⟨55, _⟩ => ⟨S1600000x32, .f32⟩
  | .hbm, ⟨56, _⟩ => ⟨S1600000, .f32⟩
  | .hbm, ⟨57, _⟩ => ⟨S_, .f32⟩
  | .hbm, ⟨58, _⟩ => ⟨S50000, .f32⟩
  | .hbm, ⟨59, _⟩ => ⟨S1600000x1, .i32⟩
  | .hbm, ⟨60, _⟩ => ⟨S50000, .f32⟩
  | .hbm, ⟨61, _⟩ => ⟨S_, .f32⟩
  | .hbm, ⟨62, _⟩ => ⟨S50000x32, .f32⟩
  | .hbm, ⟨63, _⟩ => ⟨S1600000x1, .i32⟩
  | .hbm, ⟨64, _⟩ => ⟨S50000x32, .f32⟩
  | .hbm, ⟨65, _⟩ => ⟨S50000x1, .f32⟩
  | .hbm, ⟨66, _⟩ => ⟨S50000x32, .f32⟩
  | .hbm, ⟨67, _⟩ => ⟨S50000x32, .f32⟩
  | .local _ .vmem, ⟨0, _⟩ => ⟨S2000x128, .f32⟩
  | .local _ .vmem, ⟨1, _⟩ => ⟨S2000x128, .f32⟩
  | .local _ .vmem, ⟨2, _⟩ => ⟨S128x32, .f32⟩
  | .local _ .vmem, ⟨3, _⟩ => ⟨S1x32, .f32⟩
  | .local _ .vmem, ⟨4, _⟩ => ⟨S1x32, .f32⟩
  | .local _ .vmem, ⟨5, _⟩ => ⟨S2000x32, .f32⟩
  | .local _ .vmem, ⟨6, _⟩ => ⟨S2000x32, .f32⟩
  | .local _ .vmem, ⟨7, _⟩ => ⟨S2000x1, .f32⟩
  | .local _ .vmem, ⟨8, _⟩ => ⟨S2000x1, .f32⟩
  | .local _ .vmem, ⟨9, _⟩ => ⟨S2000x1, .f32⟩
  | .local _ .vmem, ⟨10, _⟩ => ⟨S2000x1, .f32⟩
  | .local _ .vmem, ⟨11, _⟩ => ⟨S4000x1, .f32⟩
  | .local _ .vmem, ⟨12, _⟩ => ⟨S4000x1, .f32⟩
  | .local _ .vmem, ⟨13, _⟩ => ⟨S1x1, .f32⟩
  | .local _ .vmem, ⟨14, _⟩ => ⟨S1x1, .f32⟩
  | .local _ .vmem, ⟨15, _⟩ => ⟨S4000x32, .f32⟩
  | .local _ .vmem, ⟨16, _⟩ => ⟨S4000x32, .f32⟩
  | .local _ .vmem, ⟨17, _⟩ => ⟨S4000x1, .f32⟩
  | .local _ .vmem, ⟨18, _⟩ => ⟨S4000x1, .f32⟩
  | .local _ .vmem, ⟨19, _⟩ => ⟨S4000x32, .f32⟩
  | .local _ .vmem, ⟨20, _⟩ => ⟨S4000x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v18 : Ref sig .tc := ⟨.hbm, 37, rfl⟩
abbrev main_cst_3 : Ref sig .tc := ⟨.hbm, 38, rfl⟩
abbrev main_v19 : Ref sig .tc := ⟨.hbm, 39, rfl⟩
abbrev main_v20 : Ref sig .tc := ⟨.hbm, 40, rfl⟩
abbrev main_cst_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31_0 : Ref sig .tc := ⟨.hbm, 54, rfl⟩
abbrev main_v31_1 : Ref sig .tc := ⟨.hbm, 55, rfl⟩
abbrev main_v32 : Ref sig .tc := ⟨.hbm, 56, rfl⟩
abbrev main_cst_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_8 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S2000x32_S2000x32_0_0 : ∀ a, (![0, 0] : Fin 2 → Nat) a + S2000x32.size a ≤ S2000x32.size a
  h_S2000x32 : 0 < S2000x32.numel
  inb_S1x32_S1x32_0_0 : ∀ a, (![0, 0] : Fin 2 → Nat) a + S1x32.size a ≤ S1x32.size a
  h_S1x32 : 0 < S1x32.numel
  broadcasts_S1x32_S2000x32 : S1x32.Broadcasts S2000x32
  reduces_S2000x32_S2000 : S2000x32.Reduces [1] S2000
  shapeCasts_S2000_S2000x1 : S2000.ShapeCasts S2000x1
  inb_S2000x1_S2000x1_0_0 : ∀ a, (![0, 0] : Fin 2 → Nat) a + S2000x1.size a ≤ S2000x1.size a
  h_S2000x1 : 0 < S2000x1.numel
  shapeCasts_S50000x1_S50000 : S50000x1.ShapeCasts S50000
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000_S_d0 : S1600000.ReducesTo [0] S_
  h_S_ : 0 < S_.numel
  shapeCasts_S_S1x1 : S_.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S1x1_S4000x1 : S1x1.Broadcasts S4000x1
  inb_S4000x32_S4000x32_0_0 : ∀ a, (![0, 0] : Fin 2 → Nat) a + S4000x32.size a ≤ S4000x32.size a
  h_S4000x32 : 0 < S4000x32.numel
  shapeCasts_S4000x32_S4000x32 : S4000x32.ShapeCasts S4000x32
  broadcasts_S4000x1_S4000x32 : S4000x1.Broadcasts S4000x32
  shapeCasts_S1600000x1_S1600000 : S1600000x1.ShapeCasts S1600000
  bcast_S_S50000 : S_.BroadcastsInDim S50000 (![] : Fin 0 → Fin S50000.rank)
  bcast_S_S50000x32 : S_.BroadcastsInDim S50000x32 (![] : Fin 0 → Fin S50000x32.rank)
  bcast_S50000_S50000x1_0 : S50000.BroadcastsInDim S50000x1 (![0] : Fin 1 → Fin S50000x1.rank)
  bcast_S50000x1_S50000x32_0_1 : S50000x1.BroadcastsInDim S50000x32 (![0, 1] : Fin 2 → Fin S50000x32.rank)
  dot_S2000x128_S128x32_S2000x32_1_0_0_1_n_n_wf : DotDims.WF S2000x128 S128x32 S2000x32 [1] [0] [0] [1] [] []
  gather_S50000_S1600000x1_S1600000_n_0_n_n_0_1_1_wf : GatherDims.WF S50000 S1600000x1 S1600000 [] [0] [] [0] [] 1 ![1]
  gather_S50000x32_S1600000x1_S1600000x32_1_0_n_n_0_1_132_wf : GatherDims.WF S50000x32 S1600000x1 S1600000x32 [1] [0] [] [0] [] 1 ![1, 32]
  scatter_S50000_S1600000x1_S1600000_n_0_0_1_wf : ScatterDims.WF S50000 S1600000x1 S1600000 [] [0] [0] 1
  scatter_S50000x32_S1600000x1_S1600000x32_1_0_0_1_wf : ScatterDims.WF S50000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x32.size a ≤ S50000x32.size a
  hwx0_4 : ∀ i : grid0.Coords, EltTy.bits .f32 = 32 ∨ (Rect.block (s := S50000x32) S2000x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x1.size a ≤ S50000x1.size a
  hwx0_5 : ∀ i : grid0.Coords, EltTy.bits .f32 = 32 ∨ (Rect.block (s := S50000x1) S2000x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x1.size a ≤ S50000x1.size a
  hwx0_6 : ∀ i : grid0.Coords, EltTy.bits .f32 = 32 ∨ (Rect.block (s := S50000x1) S2000x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x1.size a ≤ S1600000x1.size a
  hwx1_0 : ∀ i : grid1.Coords, EltTy.bits .f32 = 32 ∨ (Rect.block (s := S1600000x1) S4000x1.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x32.size a ≤ S1600000x32.size a
  hwx1_3 : ∀ i : grid1.Coords, EltTy.bits .f32 = 32 ∨ (Rect.block (s := S1600000x32) S4000x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x1.size a ≤ S1600000x1.size a
  hwx1_4 : ∀ i : grid1.Coords, EltTy.bits .f32 = 32 ∨ (Rect.block (s := S1600000x1) S4000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x32.size a ≤ S1600000x32.size a
  hwx1_5 : ∀ i : grid1.Coords, EltTy.bits .f32 = 32 ∨ (Rect.block (s := S1600000x32) S4000x32.size (cc1_transform_5 i) (hinb1_5 i)).WholeWords (EltTy.packing .f32)

variable [Facts₀]

def dot_S2000x128_S128x32_S2000x32_1_0_0_1_n_n : DotDims S2000x128 S128x32 S2000x32 where
  lhsContracting := [1]
  rhsContracting := [0]
  lhsNonContracting := [0]
  rhsNonContracting := [1]
  lhsBatch := []
  rhsBatch := []
  wf := dot_S2000x128_S128x32_S2000x32_1_0_0_1_n_n_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S2000x32.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S2000x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S2000x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v23) S4000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S4000x32.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v31_0) S4000x1.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v31_1) S4000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x32 : Shape := ⟨2, ![128, 32]⟩
abbrev S1x32 : Shape := ⟨2, ![1, 32]⟩
abbrev S1600000 : Shape := ⟨1, ![1600000]⟩
abbrev S50000x32 : Shape := ⟨2, ![50000, 32]⟩
abbrev S_ : Shape := ⟨0, ![]⟩
abbrev S50000 : Shape := ⟨1, ![50000]⟩
abbrev S1600000x1 : Shape := ⟨2, ![1600000, 1]⟩
abbrev S1600000x32 : Shape := ⟨2, ![1600000, 32]⟩
abbrev S50000x1 : Shape := ⟨2, ![50000, 1]⟩

abbrev nBuf : Space → Nat
  | .hbm => 75
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x32, .f32⟩
  | .hbm, ⟨2, _⟩ => ⟨S1x32, .f32⟩
  | .hbm, ⟨3, _⟩ => ⟨S1x32, .f32⟩
  | .hbm, ⟨4, _⟩ => ⟨S1600000, .i32⟩
  | .hbm, ⟨5, _⟩ => ⟨S1600000, .i32⟩
  | .hbm, ⟨6, _⟩ => ⟨S50000x32, .f32⟩
  | .hbm, ⟨7, _⟩ => ⟨S50000x32, .f32⟩
  | .hbm, ⟨8, _⟩ => ⟨S50000x32, .f32⟩
  | .hbm, ⟨9, _⟩ => ⟨S_, .f32⟩
  | .hbm, ⟨10, _⟩ => ⟨S50000, .f32⟩
  | .hbm, ⟨11, _⟩ => ⟨S50000x32, .f32⟩
  | .hbm, ⟨12, _⟩ => ⟨S50000x32, .f32⟩
  | .hbm, ⟨13, _⟩ => ⟨S_, .f32⟩
  | .hbm, ⟨14, _⟩ => ⟨S50000, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000, .f32⟩
  | .hbm, ⟨33, _⟩ => ⟨S1600000, .f32⟩
  | .hbm, ⟨34, _⟩ => ⟨S_, .f32⟩
  | .hbm, ⟨35, _⟩ => ⟨S_, .f32⟩
  | .hbm, ⟨36, _⟩ => ⟨S1600000, .f32⟩
  | .hbm, ⟨37, _⟩ => ⟨S1600000, .i1⟩
  | .hbm, ⟨38, _⟩ => ⟨S_, .f32⟩
  | .hbm, ⟨39, _⟩ => ⟨S1600000, .f32⟩
  | .hbm, ⟨40, _⟩ => ⟨S1600000, .f32⟩
  | .hbm, ⟨41, _⟩ => ⟨S1600000, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S1600000, .f32⟩
  | .hbm, ⟨47, _⟩ => ⟨S1600000, .f32⟩
  | .hbm, ⟨48, _⟩ => ⟨S_, .f32⟩
  | .hbm, ⟨49, _⟩ => ⟨S1600000, .f32⟩
  | .hbm, ⟨50, _⟩ => ⟨S1600000, .f32⟩
  | .hbm, ⟨51, _⟩ => ⟨S1600000, .f32⟩
  | .hbm, ⟨52, _⟩ => ⟨S_, .f32⟩
  | .hbm, ⟨53, _⟩ => ⟨S50000, .f32⟩
  | .hbm, ⟨54, _⟩ => ⟨S1600000x1, .i32⟩
  | .hbm, ⟨55, _⟩ => ⟨S50000, .f32⟩
  | .hbm, ⟨56, _⟩ => ⟨S1600000x1, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x32, .f32⟩
  | .hbm, ⟨66, _⟩ => ⟨S1600000x32, .f32⟩
  | .hbm, ⟨67, _⟩ => ⟨S1600000x32, .f32⟩
  | .hbm, ⟨68, _⟩ => ⟨S_, .f32⟩
  | .hbm, ⟨69, _⟩ => ⟨S50000x32, .f32⟩
  | .hbm, ⟨70, _⟩ => ⟨S1600000x1, .i32⟩
  | .hbm, ⟨71, _⟩ => ⟨S50000x32, .f32⟩
  | .hbm, ⟨72, _⟩ => ⟨S50000x1, .f32⟩
  | .hbm, ⟨73, _⟩ => ⟨S50000x32, .f32⟩
  | .hbm, ⟨74, _⟩ => ⟨S50000x32, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_cst_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_c_9 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩

abbrev nD : Nat := 1
abbrev τ : Topo := Topo.v7x

variable {F : FTy → Type} [FloatOps F]

class Facts₀ : Prop where
  bcast_S1x32_S50000x32_0_1 : S1x32.BroadcastsInDim S50000x32 (![0, 1] : Fin 2 → Fin S50000x32.rank)
  reducesTo_S50000x32_S50000_d1 : S50000x32.ReducesTo [1] S50000
  h_S_ : 0 < S_.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000_S_d0 : S1600000.ReducesTo [0] S_
  bcast_S_S50000 : S_.BroadcastsInDim S50000 (![] : Fin 0 → Fin S50000.rank)
  bcast_S1600000x1_S1600000x32_0_1 : S1600000x1.BroadcastsInDim S1600000x32 (![0, 1] : Fin 2 → Fin S1600000x32.rank)
  bcast_S_S50000x32 : S_.BroadcastsInDim S50000x32 (![] : Fin 0 → Fin S50000x32.rank)
  bcast_S50000_S50000x1_0 : S50000.BroadcastsInDim S50000x1 (![0] : Fin 1 → Fin S50000x1.rank)
  bcast_S50000x1_S50000x32_0_1 : S50000x1.BroadcastsInDim S50000x32 (![0, 1] : Fin 2 → Fin S50000x32.rank)
  dot_S50000x128_S128x32_S50000x32_1_0_0_1_n_n_wf : DotDims.WF S50000x128 S128x32 S50000x32 [1] [0] [0] [1] [] []
  gather_S50000_S1600000x1_S1600000_n_0_n_n_0_1_1_wf : GatherDims.WF S50000 S1600000x1 S1600000 [] [0] [] [0] [] 1 ![1]
  scatter_S50000_S1600000x1_S1600000_n_0_0_1_wf : ScatterDims.WF S50000 S1600000x1 S1600000 [] [0] [0] 1
  gather_S50000x32_S1600000x1_S1600000x32_1_0_n_n_0_1_132_wf : GatherDims.WF S50000x32 S1600000x1 S1600000x32 [1] [0] [] [0] [] 1 ![1, 32]
  scatter_S50000x32_S1600000x1_S1600000x32_1_0_0_1_wf : ScatterDims.WF S50000x32 S1600000x1 S1600000x32 [1] [0] [0] 1

variable [Facts₀]

def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf

class Facts : Prop extends Facts₀ where

variable [Facts]
-- ==== Proof.Spec.lean ====
/-
  The computation both programs perform, stage by stage, as functions of whole arrays: a graph-attention layer over
  50000 nodes and 1600000 edges. From the node features X and the weights W: X' = X·W; per node the two score halves
  s0 = Σ_d X'[n,d]·a0[d], s1 = Σ_d X'[n,d]·a1[d]; per edge e = (row e, col e) the raw score
  v e = leaky_relu (s0 (row e) + s1 (col e)); its min-max normalisation (v e - min v) / (max v - min v) and the edge weight
  att e = exp of it; per node the sum of its incoming edge weights and the att-weighted sum of the neighbours' X' rows;
  the result is their quotient. Each stage is spelt with the host operation the reference applies, so the reference's
  result is `out` by unfolding; the kernel computes X', s0, s1 and the pair (att, att·X'[col]) in two tiled passes.
-/
import proofs.«174092_j62182536511750_2_alg».proof.ReferenceIdeal
import Idealize.ShloMosaic.PureOps.Ideal

noncomputable section

namespace Cert.ReferenceIdeal.Spec

open Idealize.ShloMosaic Cert.ReferenceIdeal Cert.ReferenceIdeal.Facts₀ Cert.ReferenceIdeal.Facts

variable {F : FTy → Type} [FloatOps F] [Cert.ReferenceIdeal.Facts]

/-- X' = X·W: the product contracting X's second axis with W's first. -/
def xprime (X : FVec F S50000x128 .f32) (Wt : FVec F S128x32 .f32) : FVec F S50000x32 .f32 :=
  Host.dotGeneral dot_S50000x128_S128x32_S50000x32_1_0_0_1_n_n none X Wt

/-- One score half: s n = 0 + Σ_d X'[n,d]·a[0,d]. -/
def score (xp : FVec F S50000x32 .f32) (a : FVec F S1x32 .f32) : FVec F S50000 .f32 :=
  Host.reduceAdd (mulf xp (broadcastInDim S50000x32 ![0, 1] bcast_S1x32_S50000x32_0_1 a)) (constant S_ .f32 0x00000000#32)
    reducesTo_S50000x32_S50000_d1 h_S_

/-- A node-index vector as the gathers take it: a negative index counted from the end, then an E×1 column. -/
def wrap (idx : IVec S1600000 32) : IVec S1600000x1 32 :=
  broadcastInDim S1600000x1 ![0] bcast_S1600000_S1600000x1_0
    (select (cmpi .slt idx (broadcastInDim S1600000 ![] bcast_S_S1600000 (constantI S_ 32 0#32)))
      (addi idx (broadcastInDim S1600000 ![] bcast_S_S1600000 (constantI S_ 32 50000#32))) idx)

/-- leaky_relu with slope 0.2 (the f32 word 0x3E4CCCCD): x where x ≥ 0, else slope·x. -/
def leaky (x : FVec F S1600000 .f32) : FVec F S1600000 .f32 :=
  select (cmpf .oge x (broadcastInDim S1600000 ![] bcast_S_S1600000 (constant S_ .f32 0x00000000#32))) x
    (mulf (broadcastInDim S1600000 ![] bcast_S_S1600000 (id (constant S_ .f32 0x3E4CCCCD#32))) x)

/-- The raw edge scores: v e = leaky_relu (s0 (row e) + s1 (col e)). -/
def raw (s0 s1 : FVec F S50000 .f32) (row col : IVec S1600000 32) : FVec F S1600000 .f32 :=
  leaky (addf (Host.gather gather_S50000_S1600000x1_S1600000_n_0_n_n_0_1_1 s0 (wrap row))
    (Host.gather gather_S50000_S1600000x1_S1600000_n_0_n_n_0_1_1 s1 (wrap col)))

/-- The least edge score (the fold of min from +∞). -/
def vmin (v : FVec F S1600000 .f32) : FVec F S_ .f32 :=
  Host.reduce FloatOps.minimumf v (constant S_ .f32 0x7F800000#32) reducesTo_S1600000_S_d0 h_S_

/-- The greatest edge score (the fold of max from -∞). -/
def vmax (v : FVec F S1600000 .f32) : FVec F S_ .f32 :=
  Host.reduce FloatOps.maximumf v (constant S_ .f32 0xFF800000#32) reducesTo_S1600000_S_d0 h_S_

/-- The edge weights: att e = exp ((v e - min v) / (max v - min v)). -/
def att (v : FVec F S1600000 .f32) : FVec F S1600000 .f32 :=
  Host.exp (Host.divf (subf v (broadcastInDim S1600000 ![] bcast_S_S1600000 (vmin v)))
    (broadcastInDim S1600000 ![] bcast_S_S1600000 (subf (vmax v) (vmin v))))

/-- The neighbours' rows: X'[col e, :] per edge. -/
def gathered (xp : FVec F S50000x32 .f32) (col : IVec S1600000 32) : FVec F S1600000x32 .f32 :=
  Host.gather gather_S50000x32_S1600000x1_S1600000x32_1_0_n_n_0_1_132 xp (wrap col)

/-- att e · X'[col e, j]. -/
def weighted (a : FVec F S1600000 .f32) (xg : FVec F S1600000x32 .f32) : FVec F S1600000x32 .f32 :=
  mulf (broadcastInDim S1600000x32 ![0, 1] bcast_S1600000x1_S1600000x32_0_1
    (broadcastInDim S1600000x1 ![0] bcast_S1600000_S1600000x1_0 a)) xg

/-- Per node, the sum of the weights of the edges whose row is that node (from zero). -/
def rowsSum (a : FVec F S1600000 .f32) (row : IVec S1600000 32) : FVec F S50000 .f32 :=
  Host.scatterAdd scatter_S50000_S1600000x1_S1600000_n_0_0_1
    (broadcastInDim S50000 ![] bcast_S_S50000 (constant S_ .f32 0x00000000#32))
    (broadcastInDim S1600000x1 ![0] bcast_S1600000_S1600000x1_0 row) a

/-- Per node, the sum of the weighted rows of the edges whose row is that node (from zero). -/
def hsum (w : FVec F S1600000x32 .f32) (row : IVec S1600000 32) : FVec F S50000x32 .f32 :=
  Host.scatterAdd scatter_S50000x32_S1600000x1_S1600000x32_1_0_0_1
    (broadcastInDim S50000x32 ![] bcast_S_S50000x32 (constant S_ .f32 0x00000000#32))
    (broadcastInDim S1600000x1 ![0] bcast_S1600000_S1600000x1_0 row) w

/-- h[n, j] / rows_sum[n]. -/
def normalize (h : FVec F S50000x32 .f32) (rs : FVec F S50000 .f32) : FVec F S50000x32 .f32 :=
  Host.divf h (broadcastInDim S50000x32 ![0, 1] bcast_S50000x1_S50000x32_0_1
    (broadcastInDim S50000x1 ![0] bcast_S50000_S50000x1_0 rs))

/-- The layer's result from edge weights `a` and X': the weighted neighbour sums over the weight sums. -/
def finish (a : FVec F S1600000 .f32) (xp : FVec F S50000x32 .f32) (row col : IVec S1600000 32) : FVec F S50000x32 .f32 :=
  normalize (hsum (weighted a (gathered xp col)) row) (rowsSum a row)

/-- The raw edge scores from the inputs. -/
def scores (X : FVec F S50000x128 .f32) (Wt : FVec F S128x32 .f32) (a0 a1 : FVec F S1x32 .f32)
    (row col : IVec S1600000 32) : FVec F S1600000 .f32 :=
  raw (score (xprime X Wt) a0) (score (xprime X Wt) a1) row col

/-- The whole layer. -/
def out (X : FVec F S50000x128 .f32) (Wt : FVec F S128x32 .f32) (a0 a1 : FVec F S1x32 .f32)
    (row col : IVec S1600000 32) : FVec F S50000x32 .f32 :=
  finish (att (scores X Wt a0 a1 row col)) (xprime X Wt) row col

end Cert.ReferenceIdeal.Spec

end
-- ==== Proof.RefRun.lean ====
/-
  The reference program's run, read back as one pure term. @main is a straight line of 69 host operations: its own 62
  lines, and, at the one call it makes (leaky_relu on the edge scores and the slope), the callee's six operations followed
  by the single select of the function that callee itself calls, each over the buffers that call names. A straight line
  of operations over distinct result buffers terminates from any memory, and leaves in every buffer the composition of the
  operations that feed it, applied to the arguments' contents at launch; the arguments, which no operation writes, are
  unchanged. For the result buffer that composition is, stage by stage, the layer `Spec.out` of the six arguments.
-/
import proofs.«174092_j62182536511750_2_alg».proof.Proof.Gen.ReferenceIdeal
import proofs.«174092_j62182536511750_2_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 69 operations, in order: lines 1–29, the call's seven (the zero and its broadcast, the comparison x ≥ 0, the
    slope converted to its own type and broadcast, the product slope·x, the select), then lines 31–63. -/
abbrev ops : List (HloOp τ sig (Elt F)) :=
  [ binary main_arg0 main_arg1 main_v0 ((fun l r => Host.dotGeneral dot_S50000x128_S128x32_S50000x32_1_0_0_1_n_n none l r) : (⟨S50000x128, .f32⟩ : BufTy).Contents (Elt F) → (⟨S128x32, .f32⟩ : BufTy).Contents (Elt F) → (⟨S50000x32, .f32⟩ : BufTy).Contents (Elt F)),
    unary main_arg2 main_v1 (broadcastInDim S50000x32 ![0, 1] bcast_S1x32_S50000x32_0_1 : (⟨S1x32, .f32⟩ : BufTy).Contents (Elt F) → (⟨S50000x32, .f32⟩ : BufTy).Contents (Elt F)),
    binary main_v0 main_v1 main_v2 (mulf : (⟨S50000x32, .f32⟩ : BufTy).Contents (Elt F) → (⟨S50000x32, .f32⟩ : BufTy).Contents (Elt F) → (⟨S50000x32, .f32⟩ : BufTy).Contents (Elt F)),
    nullary main_cst (constant S_ .f32 0x00000000#32),
    binary main_v2 main_cst main_v3 ((fun x v => Host.reduceAdd x v reducesTo_S50000x32_S50000_d1 h_S_) : (⟨S50000x32, .f32⟩ : BufTy).Contents (Elt F) → (⟨S_, .f32⟩ : BufTy).Contents (Elt F) → (⟨S50000, .f32⟩ : BufTy).Contents (Elt F)),
    unary main_arg3 main_v4 (broadcastInDim S50000x32 ![0, 1] bcast_S1x32_S50000x32_0_1 : (⟨S1x32, .f32⟩ : BufTy).Contents (Elt F) → (⟨S50000x32, .f32⟩ : BufTy).Contents (Elt F)),
    binary main_v0 main_v4 main_v5 (mulf : (⟨S50000x32, .f32⟩ : BufTy).Contents (Elt F) → (⟨S50000x32, .f32⟩ : BufTy).Contents (Elt F) → (⟨S50000x32, .f32⟩ : BufTy).Contents (Elt F)),
    nullary main_cst_0 (constant S_ .f32 0x00000000#32),
    binary main_v5 main_cst_0 main_v6 ((fun x v => Host.reduceAdd x v reducesTo_S50000x32_S50000_d1 h_S_) : (⟨S50000x32, .f32⟩ : BufTy).Contents (Elt F) → (⟨S_, .f32⟩ : BufTy).Contents (Elt F) → (⟨S50000, .f32⟩ : BufTy).Contents (Elt F)),
    nullary main_c (constantI S_ 32 0#32),
    unary main_c main_v7 (broadcastInDim S1600000 ![] bcast_S_S1600000 : (⟨S_, .i32⟩ : BufTy).Contents (Elt F) → (⟨S1600000, .i32⟩ : BufTy).Contents (Elt F)),
    binary main_arg4 main_v7 main_v8 (cmpi .slt : (⟨S1600000, .i32⟩ : BufTy).Contents (Elt F) → (⟨S1600000, .i32⟩ : BufTy).Contents (Elt F) → (⟨S1600000, .i1⟩ : BufTy).Contents (Elt F)),
    nullary main_c_1 (constantI S_ 32 50000#32),
    unary main_c_1 main_v9 (broadcastInDim S1600000 ![] bcast_S_S1600000 : (⟨S_, .i32⟩ : BufTy).Contents (Elt F) → (⟨S1600000, .i32⟩ : BufTy).Contents (Elt F)),
    binary main_arg4 main_v9 main_v10 (addi : (⟨S1600000, .i32⟩ : BufTy).Contents (Elt F) → (⟨S1600000, .i32⟩ : BufTy).Contents (Elt F) → (⟨S1600000, .i32⟩ : BufTy).Contents (Elt F)),
    ternary main_v8 main_v10 main_arg4 main_v11 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v11 main_v12 (broadcastInDim S1600000x1 ![0] bcast_S1600000_S1600000x1_0 : (⟨S1600000, .i32⟩ : BufTy).Contents (Elt F) → (⟨S1600000x1, .i32⟩ : BufTy).Contents (Elt F)),
    binary main_v3 main_v12 main_v13 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    nullary main_c_2 (constantI S_ 32 0#32),
    unary main_c_2 main_v14 (broadcastInDim S1600000 ![] bcast_S_S1600000 : (⟨S_, .i32⟩ : BufTy).Contents (Elt F) → (⟨S1600000, .i32⟩ : BufTy).Contents (Elt F)),
    binary main_arg5 main_v14 main_v15 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 50000#32),
    unary main_c_3 main_v16 (broadcastInDim S1600000 ![] bcast_S_S1600000 : (⟨S_, .i32⟩ : BufTy).Contents (Elt F) → (⟨S1600000, .i32⟩ : BufTy).Contents (Elt F)),
    binary main_arg5 main_v16 main_v17 (addi : (⟨S1600000, .i32⟩ : BufTy).Contents (Elt F) → (⟨S1600000, .i32⟩ : BufTy).Contents (Elt F) → (⟨S1600000, .i32⟩ : BufTy).Contents (Elt F)),
    ternary main_v15 main_v17 main_arg5 main_v18 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v18 main_v19 (broadcastInDim S1600000x1 ![0] bcast_S1600000_S1600000x1_0 : (⟨S1600000, .i32⟩ : BufTy).Contents (Elt F) → (⟨S1600000x1, .i32⟩ : BufTy).Contents (Elt F)),
    binary main_v6 main_v19 main_v20 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    binary main_v13 main_v20 main_v21 (addf : (⟨S1600000, .f32⟩ : BufTy).Contents (Elt F) → (⟨S1600000, .f32⟩ : BufTy).Contents (Elt F) → (⟨S1600000, .f32⟩ : BufTy).Contents (Elt F)),
    nullary main_cst_4 (constant S_ .f32 0x3E4CCCCD#32),
    TRef.nullary main_call0.cst (constant S_ .f32 0x00000000#32),
    TRef.unary main_call0.cst main_call0.v0 (broadcastInDim S1600000 ![] bcast_S_S1600000),
    TRef.binary (.of main_v21) main_call0.v0 main_call0.v1 (cmpf .oge),
    TRef.unary (.of main_cst_4) main_call0.v2 id,
    TRef.unary main_call0.v2 main_call0.v3 (broadcastInDim S1600000 ![] bcast_S_S1600000),
    TRef.binary main_call0.v3 (.of main_v21) main_call0.v4 mulf,
    TRef.ternary main_call0.v1 (.of main_v21) main_call0.v4 main_call0.call0.v0 select,
    nullary main_cst_5 (constant S_ .f32 0x7F800000#32),
    binary main_v22 main_cst_5 main_v23 ((fun x v => Host.reduce FloatOps.minimumf x v reducesTo_S1600000_S_d0 h_S_) : (⟨S1600000, .f32⟩ : BufTy).Contents (Elt F) → (⟨S_, .f32⟩ : BufTy).Contents (Elt F) → (⟨S_, .f32⟩ : BufTy).Contents (Elt F)),
    nullary main_cst_6 (constant S_ .f32 0xFF800000#32),
    binary main_v22 main_cst_6 main_v24 ((fun x v => Host.reduce FloatOps.maximumf x v reducesTo_S1600000_S_d0 h_S_) : (⟨S1600000, .f32⟩ : BufTy).Contents (Elt F) → (⟨S_, .f32⟩ : BufTy).Contents (Elt F) → (⟨S_, .f32⟩ : BufTy).Contents (Elt F)),
    unary main_v23 main_v25 (broadcastInDim S1600000 ![] bcast_S_S1600000 : (⟨S_, .f32⟩ : BufTy).Contents (Elt F) → (⟨S1600000, .f32⟩ : BufTy).Contents (Elt F)),
    binary main_v22 main_v25 main_v26 (subf : (⟨S1600000, .f32⟩ : BufTy).Contents (Elt F) → (⟨S1600000, .f32⟩ : BufTy).Contents (Elt F) → (⟨S1600000, .f32⟩ : BufTy).Contents (Elt F)),
    binary main_v24 main_v23 main_v27 (subf : (⟨S_, .f32⟩ : BufTy).Contents (Elt F) → (⟨S_, .f32⟩ : BufTy).Contents (Elt F) → (⟨S_, .f32⟩ : BufTy).Contents (Elt F)),
    unary main_v27 main_v28 (broadcastInDim S1600000 ![] bcast_S_S1600000 : (⟨S_, .f32⟩ : BufTy).Contents (Elt F) → (⟨S1600000, .f32⟩ : BufTy).Contents (Elt F)),
    binary main_v26 main_v28 main_v29 (Host.divf : (⟨S1600000, .f32⟩ : BufTy).Contents (Elt F) → (⟨S1600000, .f32⟩ : BufTy).Contents (Elt F) → (⟨S1600000, .f32⟩ : BufTy).Contents (Elt F)),
    unary main_v29 main_v30 (Host.exp : (⟨S1600000, .f32⟩ : BufTy).Contents (Elt F) → (⟨S1600000, .f32⟩ : BufTy).Contents (Elt F)),
    nullary main_cst_7 (constant S_ .f32 0x00000000#32),
    unary main_cst_7 main_v31 (broadcastInDim S50000 ![] bcast_S_S50000 : (⟨S_, .f32⟩ : BufTy).Contents (Elt F) → (⟨S50000, .f32⟩ : BufTy).Contents (Elt F)),
    unary main_arg4 main_v32 (broadcastInDim S1600000x1 ![0] bcast_S1600000_S1600000x1_0 : (⟨S1600000, .i32⟩ : BufTy).Contents (Elt F) → (⟨S1600000x1, .i32⟩ : BufTy).Contents (Elt F)),
    ternary main_v31 main_v32 main_v30 main_v33 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    unary main_v30 main_v34 (broadcastInDim S1600000x1 ![0] bcast_S1600000_S1600000x1_0 : (⟨S1600000, .f32⟩ : BufTy).Contents (Elt F) → (⟨S1600000x1, .f32⟩ : BufTy).Contents (Elt F)),
    nullary main_c_8 (constantI S_ 32 0#32),
    unary main_c_8 main_v35 (broadcastInDim S1600000 ![] bcast_S_S1600000 : (⟨S_, .i32⟩ : BufTy).Contents (Elt F) → (⟨S1600000, .i32⟩ : BufTy).Contents (Elt F)),
    binary main_arg5 main_v35 main_v36 (cmpi .slt : (⟨S1600000, .i32⟩ : BufTy).Contents (Elt F) → (⟨S1600000, .i32⟩ : BufTy).Contents (Elt F) → (⟨S1600000, .i1⟩ : BufTy).Contents (Elt F)),
    nullary main_c_9 (constantI S_ 32 50000#32),
    unary main_c_9 main_v37 (broadcastInDim S1600000 ![] bcast_S_S1600000 : (⟨S_, .i32⟩ : BufTy).Contents (Elt F) → (⟨S1600000, .i32⟩ : BufTy).Contents (Elt F)),
    binary main_arg5 main_v37 main_v38 (addi : (⟨S1600000, .i32⟩ : BufTy).Contents (Elt F) → (⟨S1600000, .i32⟩ : BufTy).Contents (Elt F) → (⟨S1600000, .i32⟩ : BufTy).Contents (Elt F)),
    ternary main_v36 main_v38 main_arg5 main_v39 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v39 main_v40 (broadcastInDim S1600000x1 ![0] bcast_S1600000_S1600000x1_0 : (⟨S1600000, .i32⟩ : BufTy).Contents (Elt F) → (⟨S1600000x1, .i32⟩ : BufTy).Contents (Elt F)),
    binary main_v0 main_v40 main_v41 ((fun x i => Host.gather gather_S50000x32_S1600000x1_S1600000x32_1_0_n_n_0_1_132 x i) : (⟨S50000x32, .f32⟩ : BufTy).Contents (Elt F) → (⟨S1600000x1, .i32⟩ : BufTy).Contents (Elt F) → (⟨S1600000x32, .f32⟩ : BufTy).Contents (Elt F)),
    unary main_v34 main_v42 (broadcastInDim S1600000x32 ![0, 1] bcast_S1600000x1_S1600000x32_0_1 : (⟨S1600000x1, .f32⟩ : BufTy).Contents (Elt F) → (⟨S1600000x32, .f32⟩ : BufTy).Contents (Elt F)),
    binary main_v42 main_v41 main_v43 (mulf : (⟨S1600000x32, .f32⟩ : BufTy).Contents (Elt F) → (⟨S1600000x32, .f32⟩ : BufTy).Contents (Elt F) → (⟨S1600000x32, .f32⟩ : BufTy).Contents (Elt F)),
    nullary main_cst_10 (constant S_ .f32 0x00000000#32),
    unary main_cst_10 main_v44 (broadcastInDim S50000x32 ![] bcast_S_S50000x32 : (⟨S_, .f32⟩ : BufTy).Contents (Elt F) → (⟨S50000x32, .f32⟩ : BufTy).Contents (Elt F)),
    unary main_arg4 main_v45 (broadcastInDim S1600000x1 ![0] bcast_S1600000_S1600000x1_0 : (⟨S1600000, .i32⟩ : BufTy).Contents (Elt F) → (⟨S1600000x1, .i32⟩ : BufTy).Contents (Elt F)),
    ternary main_v44 main_v45 main_v43 main_v46 ((fun x i u => Host.scatterAdd scatter_S50000x32_S1600000x1_S1600000x32_1_0_0_1 x i u) : (⟨S50000x32, .f32⟩ : BufTy).Contents (Elt F) → (⟨S1600000x1, .i32⟩ : BufTy).Contents (Elt F) → (⟨S1600000x32, .f32⟩ : BufTy).Contents (Elt F) → (⟨S50000x32, .f32⟩ : BufTy).Contents (Elt F)),
    unary main_v33 main_v47 (broadcastInDim S50000x1 ![0] bcast_S50000_S50000x1_0 : (⟨S50000, .f32⟩ : BufTy).Contents (Elt F) → (⟨S50000x1, .f32⟩ : BufTy).Contents (Elt F)),
    unary main_v47 main_v48 (broadcastInDim S50000x32 ![0, 1] bcast_S50000x1_S50000x32_0_1 : (⟨S50000x1, .f32⟩ : BufTy).Contents (Elt F) → (⟨S50000x32, .f32⟩ : BufTy).Contents (Elt F)),
    binary main_v46 main_v48 main_v49 (Host.divf : (⟨S50000x32, .f32⟩ : BufTy).Contents (Elt F) → (⟨S50000x32, .f32⟩ : BufTy).Contents (Elt F) → (⟨S50000x32, .f32⟩ : BufTy).Contents (Elt F)) ]

-- sixty-nine binds re-associated: the rewrite under the chain recurses once per statement
set_option maxRecDepth 4096 in
set_option maxHeartbeats 4000000 in
/-- @main is that straight line: its two windows and the two functions' bodies unfolded, the call's record read at its
    fields, both sides are one chain of steps once sequencing is re-associated. -/
theorem main_eq (c : Dev nD) : main (F := F) c = seq ops := by
  simp only [main, main_part0, main_part1, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., binary_bufs_sub .., nullary_bufs_sub .., binary_bufs_sub .., unary_bufs_sub ..,
    binary_bufs_sub .., nullary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., nullary_bufs_sub ..,
    unary_bufs_sub .., binary_bufs_sub .., unary_bufs_sub .., unary_bufs_sub .., binary_bufs_sub .., ternary_bufs_sub ..,
    nullary_bufs_sub .., binary_bufs_sub .., nullary_bufs_sub .., binary_bufs_sub .., unary_bufs_sub .., binary_bufs_sub ..,
    binary_bufs_sub .., unary_bufs_sub .., binary_bufs_sub .., unary_bufs_sub .., nullary_bufs_sub .., unary_bufs_sub ..,
    unary_bufs_sub .., ternary_bufs_sub .., unary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., binary_bufs_sub .., nullary_bufs_sub .., unary_bufs_sub .., unary_bufs_sub .., ternary_bufs_sub ..,
    unary_bufs_sub .., unary_bufs_sub .., binary_bufs_sub ..⟩

set_option maxRecDepth 8192 in
set_option maxHeartbeats 28000000 in
/-- On every device, for any float values, from any memory with zero counters: every weakly fair execution of @main
    terminates with the result buffer at the layer `Spec.out` of the six arguments' launch contents, and the arguments
    unchanged. The fold of the 69 operations at the result buffer is read back operation by operation (each writes its own
    buffer and no other, so a read of a buffer is the function of the one operation that writes it, applied to the reads of
    its operands); the term reached is `Spec.out` with every stage unfolded. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v49) = Cert.ReferenceIdeal.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v49).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RefRun

end
-- ==== Proof.LibTRef.lean ====
/-
  A value passed into an outlined function's buffer and read back is the value.

  A typed reference carries the equation between its buffer's type and the value's type; passing a value in transports it
  along that equation and reading it back transports it the other way. Eliminating the equation shows the round trip is
  the identity, for every reference at once and without looking at any buffer's type.
-/
import Idealize.ShloMosaic.Lib.StableHlo

namespace Cert.LibTRef

open Idealize.ShloMosaic

theorem ofBuf_toBuf {sig : RefSig} {Val : EltTy → Type} {T : BufTy} (x : StableHlo.TRef sig T) (v : T.Contents Val) :
    x.ofBuf (x.toBuf v) = v := by
  obtain ⟨r, h, _, _⟩ := x
  subst h
  rfl

theorem toBuf_ofBuf {sig : RefSig} {Val : EltTy → Type} {T : BufTy} (x : StableHlo.TRef sig T) (v : x.ref.ty.Contents Val) :
    x.toBuf (x.ofBuf v) = v := by
  obtain ⟨r, h, _, _⟩ := x
  subst h
  rfl

end Cert.LibTRef
-- ==== Proof.Chain.lean ====
/-
  The host operations around the two tiled passes of the idealized kernel, read as the layer's stages. After the first
  pass has left X' and the two score columns, the host recasts the columns as vectors, gathers them at the wrapped row and
  column indices, adds, applies leaky_relu: the raw edge scores v. It folds their minimum and maximum into 1×1 matrices,
  places v as a column, and gathers the neighbours' rows of X'. After the second pass has left the edge-weight column and
  the weighted rows, the host recasts the column as a vector, sums weights and weighted rows per destination node, and
  divides. Every one of these host operations is the reference's own, so each buffer is a stage of the specification
  applied to what the passes left.
-/
import proofs.«174092_j62182536511750_2_alg».proof.Proof.Gen.KernelIdeal.Frame
import proofs.«174092_j62182536511750_2_alg».proof.Proof.Gen.ReferenceIdeal
import proofs.«174092_j62182536511750_2_alg».proof.Proof.Spec
import proofs.«174092_j62182536511750_2_alg».proof.Proof.LibTRef
import Idealize.ShloMosaic.Lib.StableHlo.Run
import Idealize.ShloMosaic.PureOps.Ideal

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen
open Cert.ReferenceIdeal (Spec.xprime Spec.score Spec.raw Spec.vmin Spec.vmax Spec.gathered Spec.normalize Spec.hsum Spec.rowsSum)

variable (m : (ℓ : Loc nD τ sig) → Buf (Elt Ideal) ℓ) (ρ : Dev nD → PrngReg) (c : Dev nD)

/-- The first score column the first pass leaves, recast as a vector. -/
def s0vec : FVec Ideal S50000 .f32 :=
  shapeCast S50000 (W1 m ρ c (Proc.devRef .tc main_v0_1)) shapeCasts_S50000x1_S50000
/-- The second score column the first pass leaves, recast as a vector. -/
def s1vec : FVec Ideal S50000 .f32 :=
  shapeCast S50000 (W1 m ρ c (Proc.devRef .tc main_v0_2)) shapeCasts_S50000x1_S50000
/-- The raw edge scores the host computes from them. -/
def kraw : FVec Ideal S1600000 .f32 :=
  Spec.raw (F := Ideal) (s0vec m ρ c) (s1vec m ρ c) (W1 m ρ c (Proc.devRef .tc main_arg4)) (W1 m ρ c (Proc.devRef .tc main_arg5))

set_option maxHeartbeats 4000000 in
/-- The second pass's first operand: the raw scores as a column. -/
theorem raw_col : V4 m ρ c main_v23 = broadcastInDim S1600000x1 ![0] bcast_S1600000_S1600000x1_0 (kraw m ρ c) := by
  show StableHlo.after hostOps1_2 (W3 m ρ c) (Proc.devRef .tc main_v23) = _
  after_results_simp
  simp only [Cert.LibTRef.ofBuf_toBuf]
  rfl

set_option maxHeartbeats 4000000 in
/-- Its second operand: the least score as a 1×1 matrix. -/
theorem vmin_11 : V4 m ρ c main_v20 = shapeCast S1x1 (Spec.vmin (F := Ideal) (kraw m ρ c)) shapeCasts_S_S1x1 := by
  show StableHlo.after hostOps1_2 (W3 m ρ c) (Proc.devRef .tc main_v20) = _
  after_results_simp
  simp only [Cert.LibTRef.ofBuf_toBuf]
  rfl

set_option maxHeartbeats 4000000 in
/-- Its third operand: the greatest score as a 1×1 matrix. -/
theorem vmax_11 : V4 m ρ c main_v22 = shapeCast S1x1 (Spec.vmax (F := Ideal) (kraw m ρ c)) shapeCasts_S_S1x1 := by
  show StableHlo.after hostOps1_2 (W3 m ρ c) (Proc.devRef .tc main_v22) = _
  after_results_simp
  simp only [Cert.LibTRef.ofBuf_toBuf]
  rfl

set_option maxHeartbeats 4000000 in
/-- Its fourth operand: the neighbours' rows of the X' the first pass left. -/
theorem xg_eq : V4 m ρ c main_v30 = Spec.gathered (F := Ideal) (W1 m ρ c (Proc.devRef .tc main_v0_0)) (W1 m ρ c (Proc.devRef .tc main_arg5)) := by
  show StableHlo.after hostOps1_2 (W3 m ρ c) (Proc.devRef .tc main_v30) = _
  after_results_simp
  rfl

set_option maxHeartbeats 4000000 in
/-- The result: the weighted sums over the weight sums, of what the second pass left. -/
theorem result_eq : W6 m ρ c (Proc.devRef .tc main_v41) =
    Spec.normalize (F := Ideal)
      (Spec.hsum (F := Ideal) (W5 m ρ c (Proc.devRef .tc main_v31_1)) (W5 m ρ c (Proc.devRef .tc main_arg4)))
      (Spec.rowsSum (F := Ideal) (shapeCast S1600000 (W5 m ρ c (Proc.devRef .tc main_v31_0)) shapeCasts_S1600000x1_S1600000)
        (W5 m ρ c (Proc.devRef .tc main_arg4))) := by
  show StableHlo.after hostOps2 (W5 m ρ c) (Proc.devRef .tc main_v41) = _
  after_results_simp
  rfl

/-- No region and no host operation writes an argument before the second pass ends: row indices as launched. -/
theorem W5_arg4 : W5 m ρ c (Proc.devRef .tc main_arg4) = m ((c : Thread nD τ).loc main_arg4) := by
  have h6 := W6_main_arg4 m ρ c
  rw [show W6 m ρ c (Proc.devRef .tc main_arg4) = W5 m ρ c (Proc.devRef .tc main_arg4) from by
    show StableHlo.after hostOps2 (W5 m ρ c) (Proc.devRef .tc main_arg4) = _
    after_results_simp] at h6
  exact h6

/-- Row indices as launched, when the first pass ends. -/
theorem W1_arg4 : W1 m ρ c (Proc.devRef .tc main_arg4) = m ((c : Thread nD τ).loc main_arg4) :=
  W1_of_ne m ρ c main_arg4 (by decide)
/-- Column indices as launched, when the first pass ends. -/
theorem W1_arg5 : W1 m ρ c (Proc.devRef .tc main_arg5) = m ((c : Thread nD τ).loc main_arg5) :=
  W1_of_ne m ρ c main_arg5 (by decide)

/-- What the first pass left in its three output arrays is what its write-backs fold to. -/
theorem W1_xp : W1 m ρ c (Proc.devRef .tc main_v0_0) = (dat0 (V0 m ρ) c).arrAt 4 cfg0.N := W1_arr m ρ c 4
theorem W1_s0 : W1 m ρ c (Proc.devRef .tc main_v0_1) = (dat0 (V0 m ρ) c).arrAt 5 cfg0.N := W1_arr m ρ c 5
theorem W1_s1 : W1 m ρ c (Proc.devRef .tc main_v0_2) = (dat0 (V0 m ρ) c).arrAt 6 cfg0.N := W1_arr m ρ c 6
/-- What the second pass left in its two output arrays is what its write-backs fold to. -/
theorem W5_att : W5 m ρ c (Proc.devRef .tc main_v31_0) = (dat1 (V4 m ρ) c).arrAt 4 cfg1.N := W5_arr m ρ c 4
theorem W5_wt : W5 m ρ c (Proc.devRef .tc main_v31_1) = (dat1 (V4 m ρ) c).arrAt 5 cfg1.N := W5_arr m ρ c 5

end Cert.KernelIdeal.Chain

end
-- ==== Proof.K1Value.lean ====
/-
  The value of the first kernel region: per block of 2000 rows it forms X' = X·W (a product contracting the one shared
  axis of 128 coordinates, into a zero accumulator) and the two score columns s = Σ_j X'[·,j]·a[0,j]; the blocks tile
  the 50000 rows, so the three arrays the region leaves are X' and the two score vectors of the specification, index
  by index: both sides are the same finite sums Σ_{k<128} X[r,k]·W[k,j] and Σ_{j<32} X'[r,j]·a[0,j], in the same order.
-/
import proofs.«174092_j62182536511750_2_alg».proof.Proof.Gen.KernelIdeal.Frame
import proofs.«174092_j62182536511750_2_alg».proof.Proof.Gen.ReferenceIdeal
import proofs.«174092_j62182536511750_2_alg».proof.Proof.Spec
import Idealize.ShloMosaic.Lib.Pipeline.Value
import Idealize.ShloMosaic.Lib.ValueIdx
import Idealize.ShloMosaic.PureOps.Ideal.Laws
import Idealize.ShloMosaic.Lib.KernelVsHost

set_option maxRecDepth 16384

noncomputable section

open scoped BigOperators

namespace Cert.KernelIdeal.K1

open Idealize.ShloMosaic Idealize.ShloMosaic.TcCoe Idealize.ShloMosaic.ValueIdx Idealize.SL.Sem
open Idealize.ShloMosaic.Pipeline (Dat)
open Cert.KernelIdeal Cert.KernelIdeal.Gen

/-! ## The contraction of an m×k by a k×n matrix, as a sum over the shared coordinate -/

/-- The sum over the one-axis contraction index set of the products of the two operands at the operand indices is the
    sum over the shared coordinate c of A[a,c]·B[c,b]. -/
theorem contr_sum {m k n : Nat} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    (∑ c : (⟨[1], [0], [0], [1], [], [], w⟩ : DotDims ⟨2, ![m, k]⟩ ⟨2, ![k, n]⟩ ⟨2, ![m, n]⟩).contr.Idx,
        A ((⟨[1], [0], [0], [1], [], [], w⟩ : DotDims ⟨2, ![m, k]⟩ ⟨2, ![k, n]⟩ ⟨2, ![m, n]⟩).lhsIdx (ix2 a b) c)
          * B ((⟨[1], [0], [0], [1], [], [], w⟩ : DotDims ⟨2, ![m, k]⟩ ⟨2, ![k, n]⟩ ⟨2, ![m, n]⟩).rhsIdx (ix2 a b) c))
      = ∑ c : Fin k, A (ix2 a c) * B (ix2 c b) := by
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## The kernel's payloads and the specification's stages at an index -/

/-- The block product at (p, q): Σ_c x0[p,c]·x1[c,q] (the format change is the identity at the ideal values and the
    accumulator is zero). -/
theorem pay1_apply (x0 : Vec Ideal S2000x128 .f32) (x1 : Vec Ideal S128x32 .f32) (p : Fin 2000) (q : Fin 32) :
    k0_pay1 (F := Ideal) x0 x1 (ix2 p q) = ∑ c : Fin 128, x0 (ix2 p c) * x1 (ix2 c q) := by
  unfold k0_pay1
  refine (Ideal.matmul_constant_zero_apply _ none _ _ (ix2 p q)).trans ?_
  exact contr_sum Facts₀.dot_S2000x128_S128x32_S2000x32_1_0_0_1_n_n_wf x0 x1 p q

/-- X' at (r, q): Σ_c X[r,c]·W[c,q]. -/
theorem xprime_apply (X : FVec Ideal Cert.ReferenceIdeal.S50000x128 .f32) (Wt : FVec Ideal Cert.ReferenceIdeal.S128x32 .f32)
    (r : Fin 50000) (q : Fin 32) :
    Cert.ReferenceIdeal.Spec.xprime (F := Ideal) X Wt (ix2 r q) = ∑ c : Fin 128, X (ix2 r c) * Wt (ix2 c q) := by
  unfold Cert.ReferenceIdeal.Spec.xprime
  show FloatOps.dotGeneral _ none _ X Wt (ix2 r q) = _
  refine (Ideal.dotGeneral_apply _ none _ X Wt (ix2 r q)).trans ?_
  exact contr_sum Cert.ReferenceIdeal.Facts₀.dot_S50000x128_S128x32_S50000x32_1_0_0_1_n_n_wf X Wt r q

/-- A score column of the block at row p: the lane sum Σ_j X'blk[p,j]·a[0,j] (the row vector is laid along every row, the
    products are summed along the 32 lanes, and the vector of sums is stored as a column). -/
theorem pay2_apply (x0 : Vec Ideal S2000x128 .f32) (x1 : Vec Ideal S128x32 .f32) (x2 : Vec Ideal S1x32 .f32) (p : Fin 2000) :
    k0_pay2 (F := Ideal) x0 x1 x2 (ix2 p (0 : Fin 1))
      = ∑ j : Fin 32, k0_pay1 (F := Ideal) x0 x1 (ix2 p j) * x2 (ix2 (0 : Fin 1) j) := by
  unfold k0_pay2
  refine (shapeCast_apply _ Facts₀.shapeCasts_S2000_S2000x1 (ix2 p (0 : Fin 1)) (ix1 p) ?_).trans ?_
  · rw [Shape.rowMajor_val_one, Shape.rowMajor_val_two]; show p.val = p.val * 1 + 0; omega
  refine (Ideal.multiReduction_add_single _ _ Facts₀.reduces_S2000x32_S2000 _ _ (ix1 p)).trans ?_
  refine Finset.sum_congr rfl fun j _ => ?_
  have hl : Facts₀.reduces_S2000x32_S2000.lift (ix1 p) j = ix2 p j := by
    funext a; apply Fin.ext
    match a with
    | ⟨0, _⟩ => rfl
    | ⟨1, _⟩ => rfl
  rw [hl]
  show k0_pay1 (F := Ideal) x0 x1 (ix2 p j) * broadcastTo S2000x32 x2 Facts₀.broadcasts_S1x32_S2000x32 (ix2 p j) = _
  refine congrArg (k0_pay1 (F := Ideal) x0 x1 (ix2 p j) * ·) ?_
  refine broadcastTo_apply x2 Facts₀.broadcasts_S1x32_S2000x32 (ix2 p j) (ix2 (0 : Fin 1) j) ?_
  intro a
  match a with
  | ⟨0, _⟩ => rfl
  | ⟨1, _⟩ => rfl

/-- The other score column is the same lane sum with the other row vector. -/
theorem pay3_apply (x0 : Vec Ideal S2000x128 .f32) (x1 : Vec Ideal S128x32 .f32) (x3 : Vec Ideal S1x32 .f32) (p : Fin 2000) :
    k0_pay3 (F := Ideal) x0 x1 x3 (ix2 p (0 : Fin 1))
      = ∑ j : Fin 32, k0_pay1 (F := Ideal) x0 x1 (ix2 p j) * x3 (ix2 (0 : Fin 1) j) :=
  pay2_apply x0 x1 x3 p

/-- A score half at node r: 0 + Σ_j X'[r,j]·a[0,j]. -/
theorem score_apply (xp : FVec Ideal Cert.ReferenceIdeal.S50000x32 .f32) (a : FVec Ideal Cert.ReferenceIdeal.S1x32 .f32) (r : Fin 50000) :
    Cert.ReferenceIdeal.Spec.score (F := Ideal) xp a (ix1 r) = ∑ j : Fin 32, xp (ix2 r j) * a (ix2 (0 : Fin 1) j) := by
  unfold Cert.ReferenceIdeal.Spec.score
  show Ideal.hostReduceAdd _ _ _ (ix1 r) = _
  have hr : Cert.ReferenceIdeal.S50000x32.Reduces [1] Cert.ReferenceIdeal.S50000 := by decide
  refine (Ideal.hostReduceAdd_single _ hr _ _ (ix1 r)).trans ?_
  have h0 : (constant (F := Ideal) Cert.ReferenceIdeal.S_ .f32 0x00000000#32) (Shape.Idx.first Cert.ReferenceIdeal.Facts₀.h_S_) = 0 := by
    show Ideal.ofBits .f32 0x00000000#32 = 0
    exact Ideal.ofBits_zero_f32
  rw [h0, zero_add]
  refine Finset.sum_congr rfl fun j _ => ?_
  have hl : hr.lift (ix1 r) j = ix2 r j := by
    funext a; apply Fin.ext
    match a with
    | ⟨0, _⟩ => rfl
    | ⟨1, _⟩ => rfl
  rw [hl]
  show xp (ix2 r j) * broadcastInDim Cert.ReferenceIdeal.S50000x32 ![0, 1] Cert.ReferenceIdeal.Facts₀.bcast_S1x32_S50000x32_0_1 a (ix2 r j) = _
  refine congrArg (xp (ix2 r j) * ·) ?_
  exact broadcastInDim_oneRow_apply Cert.ReferenceIdeal.Facts₀.bcast_S1x32_S50000x32_0_1 a r j

/-- Block and specification agree where the block's rows are the array's: if row p of the left block is row r of X and
    the right block is W, the block product at (p, q) is X' at (r, q). -/
theorem pay1_eq_xprime (X : FVec Ideal Cert.ReferenceIdeal.S50000x128 .f32) (Wt : FVec Ideal Cert.ReferenceIdeal.S128x32 .f32)
    (x0 : Vec Ideal S2000x128 .f32) (x1 : Vec Ideal S128x32 .f32) (p : Fin 2000) (q : Fin 32) (r : Fin 50000)
    (h0 : ∀ c : Fin 128, x0 (ix2 p c) = X (ix2 r c)) (h1 : ∀ (c : Fin 128) (q : Fin 32), x1 (ix2 c q) = Wt (ix2 c q)) :
    k0_pay1 (F := Ideal) x0 x1 (ix2 p q) = Cert.ReferenceIdeal.Spec.xprime (F := Ideal) X Wt (ix2 r q) := by
  rw [pay1_apply, xprime_apply]
  exact Finset.sum_congr rfl fun c _ => by rw [h0 c, h1 c q]

/-- The same for a score column: if moreover the row vector of the block is a, the lane sum at row p is the score of
    node r. -/
theorem pay2_eq_score (X : FVec Ideal Cert.ReferenceIdeal.S50000x128 .f32) (Wt : FVec Ideal Cert.ReferenceIdeal.S128x32 .f32)
    (a : FVec Ideal Cert.ReferenceIdeal.S1x32 .f32)
    (x0 : Vec Ideal S2000x128 .f32) (x1 : Vec Ideal S128x32 .f32) (x2 : Vec Ideal S1x32 .f32) (p : Fin 2000) (r : Fin 50000)
    (h0 : ∀ c : Fin 128, x0 (ix2 p c) = X (ix2 r c)) (h1 : ∀ (c : Fin 128) (q : Fin 32), x1 (ix2 c q) = Wt (ix2 c q))
    (h2 : ∀ j : Fin 32, x2 (ix2 (0 : Fin 1) j) = a (ix2 (0 : Fin 1) j)) :
    k0_pay2 (F := Ideal) x0 x1 x2 (ix2 p (0 : Fin 1))
      = Cert.ReferenceIdeal.Spec.score (F := Ideal) (Cert.ReferenceIdeal.Spec.xprime (F := Ideal) X Wt) a (ix1 r) := by
  rw [pay2_apply, score_apply]
  exact Finset.sum_congr rfl fun j _ => by rw [pay1_eq_xprime X Wt x0 x1 p j r h0 h1, h2 j]

/-! ## From blocks to the arrays -/

section Arrays

variable (V : (c : Dev nD) → (b : Ref sig .tc) → Buf (Elt Ideal) ((c : Thread nD τ).loc b))

theorem origin_zero : (![0, 0] : Fin 2 → Nat) = fun _ => 0 := funext fun a => by fin_cases a <;> rfl

/-- The index maps over the 25 grid points: the row-blocked windows sit at block row t, the others at block 0. -/
theorem block_rows : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ t.val < 25 :=
  (by decide +kernel : ∀ t : Fin grid0.N, _)

/-- Row p of the X block at point t is row 2000·t + p of X. -/
theorem iblk_X (c : Dev nD) (t : Fin cfg0.N) (p : Fin 2000) (k : Fin 128) (r : Fin 50000) (hr : r.val = 2000 * t.val + p.val) :
    (iblk0 V c 0 t : Vec Ideal S2000x128 .f32) (ix2 p k) = (V c main_arg0 : S50000x128.Idx → Elt Ideal .f32) (ix2 r k) := by
  obtain ⟨e00, e01, -⟩ := block_rows t
  unfold iblk0
  show V c main_arg0 (((cfg0.win 0).blk t).view.emb (ix2 p k)) = _
  refine congrArg _ (funext fun a => Fin.ext ?_)
  match a with
  | ⟨0, _⟩ => show win0_0.index t (0 : Fin 2) * 2000 + 1 * p.val = r.val; omega
  | ⟨1, _⟩ => show win0_0.index t (1 : Fin 2) * 128 + 1 * k.val = k.val; omega

/-- The W block at every point is W. -/
theorem iblk_W (c : Dev nD) (t : Fin cfg0.N) (k : Fin 128) (q : Fin 32) :
    (iblk0 V c 1 t : Vec Ideal S128x32 .f32) (ix2 k q) = (V c main_arg1 : S128x32.Idx → Elt Ideal .f32) (ix2 k q) := by
  obtain ⟨-, -, e10, e11, -⟩ := block_rows t
  unfold iblk0
  show V c main_arg1 (((cfg0.win 1).blk t).view.emb (ix2 k q)) = _
  refine congrArg _ (funext fun a => Fin.ext ?_)
  match a with
  | ⟨0, _⟩ => show win0_1.index t (0 : Fin 2) * 128 + 1 * k.val = k.val; omega
  | ⟨1, _⟩ => show win0_1.index t (1 : Fin 2) * 32 + 1 * q.val = q.val; omega

/-- WHAT POINT t WRITES BACK to the first output is block t of X'. -/
theorem xprime_block (c : Dev nD) (t : Fin cfg0.N) :
    (dat0 (F := Ideal) V c).flushed 4 t
      = ((cfg0.win 4).blk t).view.read (Elt Ideal)
          (Cert.ReferenceIdeal.Spec.xprime (F := Ideal) (V c main_arg0) (V c main_arg1)) := by
  show (cfg0.win 4).cut (grid0.coords t) ((dat0 (F := Ideal) V c).after 4 t) = _
  rw [after0_4]
  unfold out0_4
  rw [View.canon_unit_zero origin_zero]
  simp only [View.ld_unit_zero (S := S2000x128) origin_zero, View.ld_unit_zero (S := S128x32) origin_zero]
  funext j
  obtain ⟨p, q, rfl⟩ : ∃ (p : Fin 2000) (q : Fin 32), j = ix2 p q := ⟨j 0, j 1, eq_ix2 j⟩
  obtain ⟨-, -, -, -, -, -, -, -, e40, e41, -, -, -, -, ht⟩ := block_rows t
  have hemb : ((cfg0.win 4).blk t).view.emb (ix2 p q)
      = (ix2 (⟨2000 * t.val + p.val, by have := p.isLt; omega⟩ : Fin 50000) q : S50000x32.Idx) := by
    funext a; apply Fin.ext
    match a with
    | ⟨0, _⟩ => show win0_4.index t (0 : Fin 2) * 2000 + 1 * p.val = 2000 * t.val + p.val; omega
    | ⟨1, _⟩ => show win0_4.index t (1 : Fin 2) * 32 + 1 * q.val = q.val; omega
  show k0_pay1 (F := Ideal) (iblk0 V c 0 t) (iblk0 V c 1 t) (ix2 p q)
    = Cert.ReferenceIdeal.Spec.xprime (F := Ideal) (V c main_arg0) (V c main_arg1) (((cfg0.win 4).blk t).view.emb (ix2 p q))
  refine Eq.trans ?_ (congrArg (Cert.ReferenceIdeal.Spec.xprime (F := Ideal) (V c main_arg0) (V c main_arg1)) hemb.symm)
  exact pay1_eq_xprime (V c main_arg0) (V c main_arg1) (iblk0 V c 0 t) (iblk0 V c 1 t) p q _
    (fun k => iblk_X V c t p k _ rfl) (fun k q => iblk_W V c t k q)

/-- The row vector blocks at every point are the row vectors. -/
theorem iblk_a0 (c : Dev nD) (t : Fin cfg0.N) (j : Fin 32) :
    (iblk0 V c 2 t : Vec Ideal S1x32 .f32) (ix2 (0 : Fin 1) j) = (V c main_arg2 : S1x32.Idx → Elt Ideal .f32) (ix2 (0 : Fin 1) j) := by
  obtain ⟨-, -, -, -, e20, e21, -⟩ := block_rows t
  unfold iblk0
  show V c main_arg2 (((cfg0.win 2).blk t).view.emb (ix2 (0 : Fin 1) j)) = _
  refine congrArg _ (funext fun a => Fin.ext ?_)
  match a with
  | ⟨0, _⟩ => show win0_2.index t (0 : Fin 2) * 1 + 1 * 0 = 0; omega
  | ⟨1, _⟩ => show win0_2.index t (1 : Fin 2) * 32 + 1 * j.val = j.val; omega

theorem iblk_a1 (c : Dev nD) (t : Fin cfg0.N) (j : Fin 32) :
    (iblk0 V c 3 t : Vec Ideal S1x32 .f32) (ix2 (0 : Fin 1) j) = (V c main_arg3 : S1x32.Idx → Elt Ideal .f32) (ix2 (0 : Fin 1) j) := by
  obtain ⟨-, -, -, -, -, -, e30, e31, -⟩ := block_rows t
  unfold iblk0
  show V c main_arg3 (((cfg0.win 3).blk t).view.emb (ix2 (0 : Fin 1) j)) = _
  refine congrArg _ (funext fun a => Fin.ext ?_)
  match a with
  | ⟨0, _⟩ => show win0_3.index t (0 : Fin 2) * 1 + 1 * 0 = 0; omega
  | ⟨1, _⟩ => show win0_3.index t (1 : Fin 2) * 32 + 1 * j.val = j.val; omega

/-- A score vector laid out as the column the region stores: entry (r, 0) is the score of node r. -/
abbrev scoreCol (X : FVec Ideal Cert.ReferenceIdeal.S50000x128 .f32) (Wt : FVec Ideal Cert.ReferenceIdeal.S128x32 .f32)
    (a : FVec Ideal Cert.ReferenceIdeal.S1x32 .f32) : S50000x1.Idx → Elt Ideal .f32 :=
  fun i => Cert.ReferenceIdeal.Spec.score (F := Ideal) (Cert.ReferenceIdeal.Spec.xprime (F := Ideal) X Wt) a (ix1 (i 0 : Fin 50000))

/-- WHAT POINT t WRITES BACK to the second output is block t of the first score column. -/
theorem score0_block (c : Dev nD) (t : Fin cfg0.N) :
    (dat0 (F := Ideal) V c).flushed 5 t
      = ((cfg0.win 5).blk t).view.read (Elt Ideal) (scoreCol (V c main_arg0) (V c main_arg1) (V c main_arg2)) := by
  show (cfg0.win 5).cut (grid0.coords t) ((dat0 (F := Ideal) V c).after 5 t) = _
  rw [after0_5]
  unfold out0_5
  rw [View.canon_unit_zero origin_zero]
  simp only [View.ld_unit_zero (S := S2000x128) origin_zero, View.ld_unit_zero (S := S128x32) origin_zero, View.ld_unit_zero (S := S1x32) origin_zero]
  funext j
  obtain ⟨p, z, rfl⟩ : ∃ (p : Fin 2000) (z : Fin 1), j = ix2 p z := ⟨j 0, j 1, eq_ix2 j⟩
  obtain rfl : z = 0 := Subsingleton.elim _ _
  obtain ⟨-, -, -, -, -, -, -, -, -, -, e50, e51, -, -, ht⟩ := block_rows t
  have hemb : ((cfg0.win 5).blk t).view.emb (ix2 p (0 : Fin 1))
      = (ix2 (⟨2000 * t.val + p.val, by have := p.isLt; omega⟩ : Fin 50000) (0 : Fin 1) : S50000x1.Idx) := by
    funext a; apply Fin.ext
    match a with
    | ⟨0, _⟩ => show win0_5.index t (0 : Fin 2) * 2000 + 1 * p.val = 2000 * t.val + p.val; omega
    | ⟨1, _⟩ => show win0_5.index t (1 : Fin 2) * 1 + 1 * 0 = 0; omega
  show k0_pay2 (F := Ideal) (iblk0 V c 0 t) (iblk0 V c 1 t) (iblk0 V c 2 t) (ix2 p (0 : Fin 1))
    = scoreCol (V c main_arg0) (V c main_arg1) (V c main_arg2) (((cfg0.win 5).blk t).view.emb (ix2 p (0 : Fin 1)))
  refine Eq.trans ?_ (congrArg (scoreCol (V c main_arg0) (V c main_arg1) (V c main_arg2)) hemb.symm)
  exact pay2_eq_score (V c main_arg0) (V c main_arg1) (V c main_arg2) (iblk0 V c 0 t) (iblk0 V c 1 t) (iblk0 V c 2 t) p _
    (fun k => iblk_X V c t p k _ rfl) (fun k q => iblk_W V c t k q) (fun j => iblk_a0 V c t j)

/-- WHAT POINT t WRITES BACK to the third output is block t of the second score column. -/
theorem score1_block (c : Dev nD) (t : Fin cfg0.N) :
    (dat0 (F := Ideal) V c).flushed 6 t
      = ((cfg0.win 6).blk t).view.read (Elt Ideal) (scoreCol (V c main_arg0) (V c main_arg1) (V c main_arg3)) := by
  show (cfg0.win 6).cut (grid0.coords t) ((dat0 (F := Ideal) V c).after 6 t) = _
  rw [after0_6]
  unfold out0_6
  rw [View.canon_unit_zero origin_zero]
  simp only [View.ld_unit_zero (S := S2000x128) origin_zero, View.ld_unit_zero (S := S128x32) origin_zero, View.ld_unit_zero (S := S1x32) origin_zero]
  funext j
  obtain ⟨p, z, rfl⟩ : ∃ (p : Fin 2000) (z : Fin 1), j = ix2 p z := ⟨j 0, j 1, eq_ix2 j⟩
  obtain rfl : z = 0 := Subsingleton.elim _ _
  obtain ⟨-, -, -, -, -, -, -, -, -, -, -, -, e60, e61, ht⟩ := block_rows t
  have hemb : ((cfg0.win 6).blk t).view.emb (ix2 p (0 : Fin 1))
      = (ix2 (⟨2000 * t.val + p.val, by have := p.isLt; omega⟩ : Fin 50000) (0 : Fin 1) : S50000x1.Idx) := by
    funext a; apply Fin.ext
    match a with
    | ⟨0, _⟩ => show win0_6.index t (0 : Fin 2) * 2000 + 1 * p.val = 2000 * t.val + p.val; omega
    | ⟨1, _⟩ => show win0_6.index t (1 : Fin 2) * 1 + 1 * 0 = 0; omega
  show k0_pay3 (F := Ideal) (iblk0 V c 0 t) (iblk0 V c 1 t) (iblk0 V c 3 t) (ix2 p (0 : Fin 1))
    = scoreCol (V c main_arg0) (V c main_arg1) (V c main_arg3) (((cfg0.win 6).blk t).view.emb (ix2 p (0 : Fin 1)))
  refine Eq.trans ?_ (congrArg (scoreCol (V c main_arg0) (V c main_arg1) (V c main_arg3)) hemb.symm)
  exact pay2_eq_score (V c main_arg0) (V c main_arg1) (V c main_arg3) (iblk0 V c 0 t) (iblk0 V c 1 t) (iblk0 V c 3 t) p _
    (fun k => iblk_X V c t p k _ rfl) (fun k q => iblk_W V c t k q) (fun j => iblk_a1 V c t j)

/-! ## The blocks tile the arrays: row r lies in the block of point r / 2000 -/

theorem in_rows_xprime (t : Fin cfg0.N) (i : S50000x32.Idx) :
    i ∈ ((cfg0.win 4).blk t).view.set ↔ ∀ a : Fin 2, win0_4.index t a * S2000x32.size a ≤ (i a).val ∧ (i a).val < win0_4.index t a * S2000x32.size a + S2000x32.size a := by
  show i ∈ ((View.whole main_v0_0).slice (win0_4.rect t)).set ↔ _
  rw [View.set_slice_whole, Rect.mem_set_unit]
  exact Iff.rfl

theorem in_rows_score0 (t : Fin cfg0.N) (i : S50000x1.Idx) :
    i ∈ ((cfg0.win 5).blk t).view.set ↔ ∀ a : Fin 2, win0_5.index t a * S2000x1.size a ≤ (i a).val ∧ (i a).val < win0_5.index t a * S2000x1.size a + S2000x1.size a := by
  show i ∈ ((View.whole main_v0_1).slice (win0_5.rect t)).set ↔ _
  rw [View.set_slice_whole, Rect.mem_set_unit]
  exact Iff.rfl

theorem in_rows_score1 (t : Fin cfg0.N) (i : S50000x1.Idx) :
    i ∈ ((cfg0.win 6).blk t).view.set ↔ ∀ a : Fin 2, win0_6.index t a * S2000x1.size a ≤ (i a).val ∧ (i a).val < win0_6.index t a * S2000x1.size a + S2000x1.size a := by
  show i ∈ ((View.whole main_v0_2).slice (win0_6.rect t)).set ↔ _
  rw [View.set_slice_whole, Rect.mem_set_unit]
  exact Iff.rfl

theorem rows_tiled_xprime (i : S50000x32.Idx) : ∃ t : Fin cfg0.N, (cfg0.win 4).flush t = true ∧ i ∈ ((cfg0.win 4).blk t).view.set := by
  have hN : cfg0.N = 25 := N_0
  have hi0 : (i 0).val < 50000 := (i 0).isLt
  have hi1 : (i 1).val < 32 := (i 1).isLt
  refine ⟨⟨(i 0).val / 2000, by omega⟩, flush0_4 _, ?_⟩
  rw [in_rows_xprime]
  obtain ⟨-, -, -, -, -, -, -, -, e40, e41, -⟩ := block_rows ⟨(i 0).val / 2000, by omega⟩
  intro a
  match a with
  | ⟨0, _⟩ =>
    show win0_4.index ⟨(i 0).val / 2000, _⟩ (0 : Fin 2) * 2000 ≤ (i 0).val ∧ (i 0).val < win0_4.index ⟨(i 0).val / 2000, _⟩ (0 : Fin 2) * 2000 + 2000
    rw [e40]; show (i 0).val / 2000 * 2000 ≤ (i 0).val ∧ (i 0).val < (i 0).val / 2000 * 2000 + 2000; omega
  | ⟨1, _⟩ =>
    show win0_4.index ⟨(i 0).val / 2000, _⟩ (1 : Fin 2) * 32 ≤ (i 1).val ∧ (i 1).val < win0_4.index ⟨(i 0).val / 2000, _⟩ (1 : Fin 2) * 32 + 32
    rw [e41]; omega

theorem rows_tiled_score0 (i : S50000x1.Idx) : ∃ t : Fin cfg0.N, (cfg0.win 5).flush t = true ∧ i ∈ ((cfg0.win 5).blk t).view.set := by
  have hN : cfg0.N = 25 := N_0
  have hi0 : (i 0).val < 50000 := (i 0).isLt
  have hi1 : (i 1).val < 1 := (i 1).isLt
  refine ⟨⟨(i 0).val / 2000, by omega⟩, flush0_5 _, ?_⟩
  rw [in_rows_score0]
  obtain ⟨-, -, -, -, -, -, -, -, -, -, e50, e51, -⟩ := block_rows ⟨(i 0).val / 2000, by omega⟩
  intro a
  match a with
  | ⟨0, _⟩ =>
    show win0_5.index ⟨(i 0).val / 2000, _⟩ (0 : Fin 2) * 2000 ≤ (i 0).val ∧ (i 0).val < win0_5.index ⟨(i 0).val / 2000, _⟩ (0 : Fin 2) * 2000 + 2000
    rw [e50]; show (i 0).val / 2000 * 2000 ≤ (i 0).val ∧ (i 0).val < (i 0).val / 2000 * 2000 + 2000; omega
  | ⟨1, _⟩ =>
    show win0_5.index ⟨(i 0).val / 2000, _⟩ (1 : Fin 2) * 1 ≤ (i 1).val ∧ (i 1).val < win0_5.index ⟨(i 0).val / 2000, _⟩ (1 : Fin 2) * 1 + 1
    rw [e51]; omega

theorem rows_tiled_score1 (i : S50000x1.Idx) : ∃ t : Fin cfg0.N, (cfg0.win 6).flush t = true ∧ i ∈ ((cfg0.win 6).blk t).view.set := by
  have hN : cfg0.N = 25 := N_0
  have hi0 : (i 0).val < 50000 := (i 0).isLt
  have hi1 : (i 1).val < 1 := (i 1).isLt
  refine ⟨⟨(i 0).val / 2000, by omega⟩, flush0_6 _, ?_⟩
  rw [in_rows_score1]
  obtain ⟨-, -, -, -, -, -, -, -, -, -, -, -, e60, e61, -⟩ := block_rows ⟨(i 0).val / 2000, by omega⟩
  intro a
  match a with
  | ⟨0, _⟩ =>
    show win0_6.index ⟨(i 0).val / 2000, _⟩ (0 : Fin 2) * 2000 ≤ (i 0).val ∧ (i 0).val < win0_6.index ⟨(i 0).val / 2000, _⟩ (0 : Fin 2) * 2000 + 2000
    rw [e60]; show (i 0).val / 2000 * 2000 ≤ (i 0).val ∧ (i 0).val < (i 0).val / 2000 * 2000 + 2000; omega
  | ⟨1, _⟩ =>
    show win0_6.index ⟨(i 0).val / 2000, _⟩ (1 : Fin 2) * 1 ≤ (i 1).val ∧ (i 1).val < win0_6.index ⟨(i 0).val / 2000, _⟩ (1 : Fin 2) * 1 + 1
    rw [e61]; omega

/-! ## The three arrays the region leaves -/

/-- The first output array after the region is X' = X·W. -/
theorem xprime_eq (c : Dev nD) :
    (dat0 (F := Ideal) V c).arrAt 4 cfg0.N
      = Cert.ReferenceIdeal.Spec.xprime (F := Ideal) (V c main_arg0) (V c main_arg1) :=
  (dat0 (F := Ideal) V c).arrAt_eq_of_cover 4
    (Cert.ReferenceIdeal.Spec.xprime (F := Ideal) (V c main_arg0) (V c main_arg1))
    (fun t _ => xprime_block V c t) rows_tiled_xprime

/-- The second output array at (r, 0) is the first score half of node r. -/
theorem s0_eq (c : Dev nD) (r : Fin 50000) :
    (dat0 (F := Ideal) V c).arrAt 5 cfg0.N (ix2 r (0 : Fin 1))
      = Cert.ReferenceIdeal.Spec.score (F := Ideal)
          (Cert.ReferenceIdeal.Spec.xprime (F := Ideal) (V c main_arg0) (V c main_arg1)) (V c main_arg2) (ix1 r) :=
  congrFun ((dat0 (F := Ideal) V c).arrAt_eq_of_cover 5 (scoreCol (V c main_arg0) (V c main_arg1) (V c main_arg2))
    (fun t _ => score0_block V c t) rows_tiled_score0) (ix2 r (0 : Fin 1))

/-- The third output array at (r, 0) is the second score half of node r. -/
theorem s1_eq (c : Dev nD) (r : Fin 50000) :
    (dat0 (F := Ideal) V c).arrAt 6 cfg0.N (ix2 r (0 : Fin 1))
      = Cert.ReferenceIdeal.Spec.score (F := Ideal)
          (Cert.ReferenceIdeal.Spec.xprime (F := Ideal) (V c main_arg0) (V c main_arg1)) (V c main_arg3) (ix1 r) :=
  congrFun ((dat0 (F := Ideal) V c).arrAt_eq_of_cover 6 (scoreCol (V c main_arg0) (V c main_arg1) (V c main_arg3))
    (fun t _ => score1_block V c t) rows_tiled_score1) (ix2 r (0 : Fin 1))

end Arrays

end Cert.KernelIdeal.K1

end
-- ==== Proof.K2Value.lean ====
/-
  The second kernel region read back. Per block of 4000 edges the body stores, from the block of raw scores v, the
  1×1 arrays holding min v and max v, and the block of gathered rows Xg,
    att e = exp ((v e − min v) · (1 / (max v − min v)))   and   weighted (e, j) = att e · Xg (e, j);
  each block is a restriction of ONE whole-array function of the region's entry contents, the 400 blocks tile the
  1600000 rows, so after the region the two output arrays hold those functions at every index.
-/
import proofs.«174092_j62182536511750_2_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.K2

open Cert.KernelIdeal Cert.KernelIdeal.Gen

variable (V : (c : Dev nD) → (b : Ref sig .tc) → Buf (Elt Ideal) ((c : Thread nD τ).loc b))

theorem origin_zero : (![0, 0] : Fin 2 → Nat) = fun _ => 0 := funext fun a => by fin_cases a <;> rfl

/-- The one index of a 1×1 array. -/
abbrev z : S1x1.Idx := ix2 0 0

/-- exp ((r − lo) · (1 / (hi − lo))), the literal 1 kept as its f32 word. -/
def expNorm (r lo hi : EReal) : EReal :=
  Ideal.exp ((r - lo) * Ideal.div (Ideal.ofBits .f32 0x3F800000#32) (hi - lo))

/-- A 1×1 vector broadcast along 4000 rows reads its one entry at every row. -/
theorem bcastRows_apply {α : Type} (x : S1x1.Idx → α) (h : S1x1.Broadcasts S4000x1) (j : S4000x1.Idx) :
    broadcastTo S4000x1 x h j = x z :=
  broadcastTo_apply x h j z (fun a => by match a with | ⟨0, _⟩ => rfl | ⟨1, _⟩ => rfl)

/-- A 4000×1 column broadcast along 32 lanes reads, at (p, q), its row p. -/
theorem bcastLanes_apply {α : Type} (x : S4000x1.Idx → α) (h : S4000x1.Broadcasts S4000x32) (p : Fin 4000) (q : Fin 32) :
    broadcastTo S4000x32 x h (ix2 p q) = x (ix2 p 0) :=
  broadcastTo_apply x h (ix2 p q) (ix2 p 0) (fun a => by match a with | ⟨0, _⟩ => rfl | ⟨1, _⟩ => rfl)

/-- The first payload at an index: the edge weight of the block's row, from the row's raw score and the two 1×1 blocks. -/
theorem pay1_apply (x1 x2 : Vec Ideal S1x1 .f32) (x0 : Vec Ideal S4000x1 .f32) (j : S4000x1.Idx) :
    k1_pay1 x1 x2 x0 j = expNorm (x0 j) (x1 z) (x2 z) := by
  unfold k1_pay1
  simp only [shapeCast_self]
  unfold expNorm
  refine congrArg Ideal.exp ?_
  refine congrArg₂ (· * ·) ?_ ?_
  · exact congrArg (x0 j - ·) (bcastRows_apply x1 _ j)
  · exact bcastRows_apply _ _ j

/-- The second payload at an index: that edge weight times the gathered row's entry. -/
theorem pay2_apply (x1 x2 : Vec Ideal S1x1 .f32) (x0 : Vec Ideal S4000x1 .f32) (x3 : Vec Ideal S4000x32 .f32) (p : Fin 4000) (q : Fin 32) :
    k1_pay2 x1 x2 x0 x3 (ix2 p q) = expNorm (x0 (ix2 p 0)) (x1 z) (x2 z) * x3 (ix2 p q) := by
  unfold k1_pay2
  simp only [shapeCast_self]
  refine congrArg (· * x3 (ix2 p q)) ?_
  exact (bcastLanes_apply _ _ p q).trans (pay1_apply x1 x2 x0 (ix2 p 0))

/-- The printed index maps, decided over the grid: the four moving windows sit at block (t, 0), the two 1×1 windows at block (0, 0). -/
theorem block_edges : ∀ t : Fin cfg1.N, win1_0.index t (0 : Fin 2) = t.val ∧ win1_0.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- The edge weights as ONE function of the region's entry contents: at row e of the column array,
    exp ((v e − min v) · (1 / (max v − min v))). -/
def attArr (c : Dev nD) : S1600000x1.Idx → EReal := fun i =>
  expNorm ((V c main_v23 : S1600000x1.Idx → EReal) i) ((V c main_v20 : S1x1.Idx → EReal) z) ((V c main_v22 : S1x1.Idx → EReal) z)

/-- What point t writes back to the weights array is block t of attArr. -/
theorem att_block (c : Dev nD) (t : Fin cfg1.N) :
    (dat1 (F := Ideal) V c).flushed 4 t = ((cfg1.win 4).blk t).view.read (Elt Ideal) (attArr V c) := by
  show (cfg1.win 4).cut (grid1.coords t) ((dat1 (F := Ideal) V c).after 4 t) = _
  rw [after1_4]
  unfold out1_4
  rw [View.canon_unit_zero origin_zero]
  simp only [View.ld_unit_zero (S := S1x1) origin_zero, View.ld_unit_zero (S := S4000x1) origin_zero]
  obtain ⟨e00, e01, e30, e31, e40, e41, e50, e51, e10, e11, e20, e21⟩ := block_edges t
  funext j
  show k1_pay1 (iblk1 V c 1 t) (iblk1 V c 2 t) (iblk1 V c 0 t) j = attArr V c (((cfg1.win 4).blk t).view.emb j)
  refine (pay1_apply (iblk1 V c 1 t) (iblk1 V c 2 t) (iblk1 V c 0 t) j).trans ?_
  have h0 : ((cfg1.win 0).blk t).view.emb j = ((cfg1.win 4).blk t).view.emb j := by
    funext a; apply Fin.ext
    match a with
    | ⟨0, _⟩ => show win1_0.index t (0 : Fin 2) * 4000 + 1 * (j 0).val = win1_4.index t (0 : Fin 2) * 4000 + 1 * (j 0).val; rw [e00, e40]
    | ⟨1, _⟩ => show win1_0.index t (1 : Fin 2) * 1 + 1 * (j 1).val = win1_4.index t (1 : Fin 2) * 1 + 1 * (j 1).val; rw [e01, e41]
  have h1 : ((cfg1.win 1).blk t).view.emb z = z := by
    funext a; apply Fin.ext
    match a with
    | ⟨0, _⟩ => show win1_1.index t (0 : Fin 2) * 1 + 1 * 0 = 0; rw [e10]
    | ⟨1, _⟩ => show win1_1.index t (1 : Fin 2) * 1 + 1 * 0 = 0; rw [e11]
  have h2 : ((cfg1.win 2).blk t).view.emb z = z := by
    funext a; apply Fin.ext
    match a with
    | ⟨0, _⟩ => show win1_2.index t (0 : Fin 2) * 1 + 1 * 0 = 0; rw [e20]
    | ⟨1, _⟩ => show win1_2.index t (1 : Fin 2) * 1 + 1 * 0 = 0; rw [e21]
  show expNorm (V c main_v23 (((cfg1.win 0).blk t).view.emb j)) (V c main_v20 (((cfg1.win 1).blk t).view.emb z)) (V c main_v22 (((cfg1.win 2).blk t).view.emb z))
    = expNorm (V c main_v23 (((cfg1.win 4).blk t).view.emb j)) (V c main_v20 z) (V c main_v22 z)
  rw [h0, h1, h2]

/-- The region's entry contents at an index, as extended reals: the raw score of edge e (row e of the column array), -/
abbrev rawAt (c : Dev nD) (e : Fin 1600000) : EReal := V c main_v23 (ix2 e 0)
/-- the least raw score (the 1×1 array's entry), -/
abbrev vminAt (c : Dev nD) : EReal := V c main_v20 z
/-- the greatest raw score (the 1×1 array's entry), -/
abbrev vmaxAt (c : Dev nD) : EReal := V c main_v22 z
/-- and entry j of the row gathered for edge e. -/
abbrev gatheredAt (c : Dev nD) (e : Fin 1600000) (j : Fin 32) : EReal := V c main_v30 (ix2 e j)

/-- An index of the weights array is in point t's block iff each coordinate is in the block's range on its axis. -/
theorem in_edges_att (t : Fin cfg1.N) (i : S1600000x1.Idx) :
    i ∈ ((cfg1.win 4).blk t).view.set ↔ ∀ a : Fin 2, win1_4.index t a * S4000x1.size a ≤ (i a).val ∧ (i a).val < win1_4.index t a * S4000x1.size a + S4000x1.size a := by
  show i ∈ ((View.whole main_v31_0).slice (win1_4.rect t)).set ↔ _
  rw [View.set_slice_whole, Rect.mem_set_unit]
  exact Iff.rfl

/-- Row e of the weights array lies in the block of point e / 4000: the 400 blocks of 4000 rows tile the 1600000 rows. -/
theorem edges_tiled_att (i : S1600000x1.Idx) : ∃ t : Fin cfg1.N, (cfg1.win 4).flush t = true ∧ i ∈ ((cfg1.win 4).blk t).view.set := by
  have hi0 : (i 0).val < 1600000 := (i 0).isLt
  have hi1 : (i 1).val < 1 := (i 1).isLt
  have hN : grid1.N = 400 := N_1
  obtain ⟨t, ht⟩ : ∃ t : Fin cfg1.N, t.val = (i 0).val / 4000 := ⟨⟨(i 0).val / 4000, by show _ < grid1.N; omega⟩, rfl⟩
  obtain ⟨-, -, -, -, e40, e41, -⟩ := block_edges t
  refine ⟨t, flush1_4 t, ?_⟩
  rw [in_edges_att]
  intro a
  match a with
  | ⟨0, _⟩ => show win1_4.index t (0 : Fin 2) * 4000 ≤ (i 0).val ∧ (i 0).val < win1_4.index t (0 : Fin 2) * 4000 + 4000; omega
  | ⟨1, _⟩ => show win1_4.index t (1 : Fin 2) * 1 ≤ (i 1).val ∧ (i 1).val < win1_4.index t (1 : Fin 2) * 1 + 1; omega

/-- After the region the weights array holds attArr of the entry contents. -/
theorem att_array (c : Dev nD) : (dat1 (F := Ideal) V c).arrAt 4 cfg1.N = attArr V c :=
  (dat1 (F := Ideal) V c).arrAt_eq_of_cover 4 (attArr V c) (fun t _ => att_block V c t) edges_tiled_att

/-- THE EDGE WEIGHTS, index by index (the literal 1 kept as its f32 word 0x3F800000). -/
theorem att_eq (c : Dev nD) (e : Fin 1600000) :
    ((dat1 (F := Ideal) V c).arrAt 4 cfg1.N : S1600000x1.Idx → EReal) (ix2 e 0) =
      Ideal.exp ((rawAt V c e - vminAt V c) * Ideal.div (Ideal.ofBits .f32 0x3F800000#32) (vmaxAt V c - vminAt V c)) :=
  congrFun (att_array V c) (ix2 e 0)

/-- The same with the three entry values named by the caller. -/
theorem att_eq_of (c : Dev nD) (e : Fin 1600000) (r lo hi : EReal) (hr : r = V c main_v23 (ix2 e 0)) (hlo : lo = V c main_v20 z)
    (hhi : hi = V c main_v22 z) :
    ((dat1 (F := Ideal) V c).arrAt 4 cfg1.N : S1600000x1.Idx → EReal) (ix2 e 0) =
      Ideal.exp ((r - lo) * Ideal.div (Ideal.ofBits .f32 0x3F800000#32) (hi - lo)) := by
  subst hr hlo hhi; exact att_eq V c e

/-- The weighted rows as ONE function of the region's entry contents: at (e, j), the edge weight of row e times Xg (e, j). -/
def weightedArr (c : Dev nD) : S1600000x32.Idx → EReal := fun i =>
  attArr V c (ix2 (⟨(i 0).val, idx2_lt0 i⟩ : Fin 1600000) (0 : Fin 1)) * (V c main_v30 : S1600000x32.Idx → EReal) i

/-- What point t writes back to the weighted-rows array is block t of weightedArr. -/
theorem weighted_block (c : Dev nD) (t : Fin cfg1.N) :
    (dat1 (F := Ideal) V c).flushed 5 t = ((cfg1.win 5).blk t).view.read (Elt Ideal) (weightedArr V c) := by
  show (cfg1.win 5).cut (grid1.coords t) ((dat1 (F := Ideal) V c).after 5 t) = _
  rw [after1_5]
  unfold out1_5
  rw [View.canon_unit_zero origin_zero]
  simp only [View.ld_unit_zero (S := S1x1) origin_zero, View.ld_unit_zero (S := S4000x1) origin_zero, View.ld_unit_zero (S := S4000x32) origin_zero]
  obtain ⟨e00, e01, e30, e31, e40, e41, e50, e51, e10, e11, e20, e21⟩ := block_edges t
  funext j
  obtain ⟨p, q, rfl⟩ : ∃ (p : Fin 4000) (q : Fin 32), j = ix2 p q := ⟨j 0, j 1, eq_ix2 j⟩
  show k1_pay2 (iblk1 V c 1 t) (iblk1 V c 2 t) (iblk1 V c 0 t) (iblk1 V c 3 t) (ix2 p q) = weightedArr V c (((cfg1.win 5).blk t).view.emb (ix2 p q))
  refine (pay2_apply (iblk1 V c 1 t) (iblk1 V c 2 t) (iblk1 V c 0 t) (iblk1 V c 3 t) p q).trans ?_
  have h0 : ((cfg1.win 0).blk t).view.emb (ix2 p 0)
      = ix2 (⟨((((cfg1.win 5).blk t).view.emb (ix2 p q)) 0).val, idx2_lt0 _⟩ : Fin 1600000) (0 : Fin 1) := by
    funext a; apply Fin.ext
    match a with
    | ⟨0, _⟩ => show win1_0.index t (0 : Fin 2) * 4000 + 1 * p.val = win1_5.index t (0 : Fin 2) * 4000 + 1 * p.val; rw [e00, e50]
    | ⟨1, _⟩ => show win1_0.index t (1 : Fin 2) * 1 + 1 * 0 = 0; rw [e01]
  have h3 : ((cfg1.win 3).blk t).view.emb (ix2 p q) = ((cfg1.win 5).blk t).view.emb (ix2 p q) := by
    funext a; apply Fin.ext
    match a with
    | ⟨0, _⟩ => show win1_3.index t (0 : Fin 2) * 4000 + 1 * p.val = win1_5.index t (0 : Fin 2) * 4000 + 1 * p.val; rw [e30, e50]
    | ⟨1, _⟩ => show win1_3.index t (1 : Fin 2) * 32 + 1 * q.val = win1_5.index t (1 : Fin 2) * 32 + 1 * q.val; rw [e31, e51]
  have h1 : ((cfg1.win 1).blk t).view.emb z = z := by
    funext a; apply Fin.ext
    match a with
    | ⟨0, _⟩ => show win1_1.index t (0 : Fin 2) * 1 + 1 * 0 = 0; rw [e10]
    | ⟨1, _⟩ => show win1_1.index t (1 : Fin 2) * 1 + 1 * 0 = 0; rw [e11]
  have h2 : ((cfg1.win 2).blk t).view.emb z = z := by
    funext a; apply Fin.ext
    match a with
    | ⟨0, _⟩ => show win1_2.index t (0 : Fin 2) * 1 + 1 * 0 = 0; rw [e20]
    | ⟨1, _⟩ => show win1_2.index t (1 : Fin 2) * 1 + 1 * 0 = 0; rw [e21]
  show expNorm (V c main_v23 (((cfg1.win 0).blk t).view.emb (ix2 p 0))) (V c main_v20 (((cfg1.win 1).blk t).view.emb z)) (V c main_v22 (((cfg1.win 2).blk t).view.emb z))
      * V c main_v30 (((cfg1.win 3).blk t).view.emb (ix2 p q))
    = expNorm (V c main_v23 (ix2 (⟨((((cfg1.win 5).blk t).view.emb (ix2 p q)) 0).val, idx2_lt0 _⟩ : Fin 1600000) (0 : Fin 1))) (V c main_v20 z) (V c main_v22 z)
      * V c main_v30 (((cfg1.win 5).blk t).view.emb (ix2 p q))
  rw [h0, h1, h2, h3]

/-- An index of the weighted-rows array is in point t's block iff each coordinate is in the block's range on its axis. -/
theorem in_edges_weighted (t : Fin cfg1.N) (i : S1600000x32.Idx) :
    i ∈ ((cfg1.win 5).blk t).view.set ↔ ∀ a : Fin 2, win1_5.index t a * S4000x32.size a ≤ (i a).val ∧ (i a).val < win1_5.index t a * S4000x32.size a + S4000x32.size a := by
  show i ∈ ((View.whole main_v31_1).slice (win1_5.rect t)).set ↔ _
  rw [View.set_slice_whole, Rect.mem_set_unit]
  exact Iff.rfl

/-- Row e of the weighted-rows array lies in the block of point e / 4000. -/
theorem edges_tiled_weighted (i : S1600000x32.Idx) : ∃ t : Fin cfg1.N, (cfg1.win 5).flush t = true ∧ i ∈ ((cfg1.win 5).blk t).view.set := by
  have hi0 : (i 0).val < 1600000 := (i 0).isLt
  have hi1 : (i 1).val < 32 := (i 1).isLt
  have hN : grid1.N = 400 := N_1
  obtain ⟨t, ht⟩ : ∃ t : Fin cfg1.N, t.val = (i 0).val / 4000 := ⟨⟨(i 0).val / 4000, by show _ < grid1.N; omega⟩, rfl⟩
  obtain ⟨-, -, -, -, -, -, e50, e51, -⟩ := block_edges t
  refine ⟨t, flush1_5 t, ?_⟩
  rw [in_edges_weighted]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 32 ≤ (i 1).val ∧ (i 1).val < win1_5.index t (1 : Fin 2) * 32 + 32; omega

/-- After the region the weighted-rows array holds weightedArr of the entry contents. -/
theorem weighted_array (c : Dev nD) : (dat1 (F := Ideal) V c).arrAt 5 cfg1.N = weightedArr V c :=
  (dat1 (F := Ideal) V c).arrAt_eq_of_cover 5 (weightedArr V c) (fun t _ => weighted_block V c t) edges_tiled_weighted

/-- THE WEIGHTED ROWS, index by index: the edge weight of row e times entry j of its gathered row. -/
theorem weighted_eq (c : Dev nD) (e : Fin 1600000) (j : Fin 32) :
    ((dat1 (F := Ideal) V c).arrAt 5 cfg1.N : S1600000x32.Idx → EReal) (ix2 e j) =
      Ideal.exp ((rawAt V c e - vminAt V c) * Ideal.div (Ideal.ofBits .f32 0x3F800000#32) (vmaxAt V c - vminAt V c))
        * gatheredAt V c e j :=
  congrFun (weighted_array V c) (ix2 e j)

/-- The same with the four entry values named by the caller. -/
theorem weighted_eq_of (c : Dev nD) (e : Fin 1600000) (j : Fin 32) (r lo hi g : EReal) (hr : r = V c main_v23 (ix2 e 0))
    (hlo : lo = V c main_v20 z) (hhi : hi = V c main_v22 z) (hg : g = V c main_v30 (ix2 e j)) :
    ((dat1 (F := Ideal) V c).arrAt 5 cfg1.N : S1600000x32.Idx → EReal) (ix2 e j) =
      Ideal.exp ((r - lo) * Ideal.div (Ideal.ofBits .f32 0x3F800000#32) (hi - lo)) * g := by
  subst hr hlo hhi hg; exact weighted_eq V c e j

end Cert.KernelIdeal.K2

end
-- ==== Proof.Layout.lean ====
/-
  The layout operations between the stages, read at coordinates: an n×1 column recast as a length-n vector and back,
  a scalar recast as a 1×1 matrix, a vector placed as an n×1 column, a scalar spread over a vector, and an n×1 column
  spread along n×k. Each is a re-indexing: the entry at a coordinate of the result is the entry of the operand at the
  coordinate with the same row-major position (a recast), or at the result's coordinates on the operand's own axes,
  zero on its unit axes (a spread).
-/
import Idealize.ShloMosaic.Lib.Pipeline.Value
import Idealize.ShloMosaic.Lib.ValueIdx

namespace Cert.Layout

open Idealize.ShloMosaic Idealize.ShloMosaic.ValueIdx

variable {α : Type}

/-- An n×1 column recast as a vector: entry r is the column's entry (r, 0). -/
theorem cast_col_vec {n : Nat} (x : (⟨2, ![n, 1]⟩ : Shape).Idx → α)
    (h : (⟨2, ![n, 1]⟩ : Shape).ShapeCasts ⟨1, ![n]⟩) (r : Fin n) :
    shapeCast (⟨1, ![n]⟩ : Shape) x h (ix1 r) = x (ix2 r 0) :=
  shapeCast_apply x h (ix1 r) (ix2 r 0) (by
    rw [Shape.rowMajor_val_two, Shape.rowMajor_val_one]
    show r.val * 1 + 0 = r.val
    omega)

/-- A scalar recast as a 1×1 matrix: its one entry is the scalar. -/
theorem cast_scalar_11 (x : (⟨0, ![]⟩ : Shape).Idx → α)
    (h : (⟨0, ![]⟩ : Shape).ShapeCasts ⟨2, ![1, 1]⟩) :
    shapeCast (⟨2, ![1, 1]⟩ : Shape) x h (ix2 0 0) = x ix0 :=
  congrArg x (eq_ix0 _)

/-- A vector placed as an n×1 column (the vector's axis named as axis 0): entry (e, 0) is the vector's entry e. -/
theorem bcast_vec_col {n : Nat} (x : (⟨1, ![n]⟩ : Shape).Idx → α)
    (h : (⟨1, ![n]⟩ : Shape).BroadcastsInDim ⟨2, ![n, 1]⟩ ![0]) (e : Fin n) (z : Fin 1) :
    broadcastInDim (⟨2, ![n, 1]⟩ : Shape) ![0] h x (ix2 e z) = x (ix1 e) := by
  have hn : (1 : Nat) ≤ n := Nat.one_le_iff_ne_zero.mpr (fun h0 => by subst h0; exact e.elim0)
  refine broadcastInDim_apply ![0] h x (ix2 e z) (ix1 e) (fun a => ?_)
  match a with
  | ⟨0, _⟩ =>
    show e.val = if n = 1 then 0 else e.val
    by_cases h1 : n = 1
    · rw [if_pos h1]; have := e.isLt; omega
    · rw [if_neg h1]

/-- A scalar spread over a vector: every entry is the scalar. -/
theorem bcast_scalar_vec {n : Nat} (x : (⟨0, ![]⟩ : Shape).Idx → α)
    (h : (⟨0, ![]⟩ : Shape).BroadcastsInDim ⟨1, ![n]⟩ ![]) (j : (⟨1, ![n]⟩ : Shape).Idx) :
    broadcastInDim (⟨1, ![n]⟩ : Shape) ![] h x j = x ix0 :=
  broadcastInDim_apply ![] h x j ix0 (fun a => a.elim0)

/-- An n×1 column spread along n×k: entry (e, j) is the column's entry (e, 0). -/
theorem bcast_col_mat {n k : Nat} (x : (⟨2, ![n, 1]⟩ : Shape).Idx → α)
    (h : (⟨2, ![n, 1]⟩ : Shape).BroadcastsInDim ⟨2, ![n, k]⟩ ![0, 1]) (e : Fin n) (j : Fin k) :
    broadcastInDim (⟨2, ![n, k]⟩ : Shape) ![0, 1] h x (ix2 e j) = x (ix2 e 0) := by
  refine broadcastInDim_apply ![0, 1] h x (ix2 e j) (ix2 e 0) (fun a => ?_)
  match a with
  | ⟨0, _⟩ =>
    show e.val = if n = 1 then 0 else e.val
    by_cases h1 : n = 1
    · rw [if_pos h1]; have := e.isLt; omega
    · rw [if_neg h1]
  | ⟨1, _⟩ =>
    show (0 : Nat) = if (1 : Nat) = 1 then 0 else j.val
    rw [if_pos rfl]

end Cert.Layout
-- ==== Proof.LibRecip.lean ====
/-
  Multiplying by a reciprocal against dividing, on the extended reals.

  A quotient by a nonzero `y` is the product with `y⁻¹` (the inverse of either infinity being zero), so `1 / y = y⁻¹`
  and `x · (1 / y) = x / y` for every extended real `x`, the infinities included: a precomputed reciprocal meets a
  division without any finiteness. The larger of anything and one is at least one, hence never zero: a count clamped
  below by one is a safe divisor whatever the count is. Also here: the host's entrywise quotient read at an index.
-/
import Idealize.ShloMosaic.PureOps.Ideal
import Idealize.ShloMosaic.PureOps.Vector

namespace Cert.LibRecip

open Idealize.ShloMosaic

/-- The larger of anything and one is not zero. -/
theorem max_one_ne_zero (y : EReal) : max y 1 ≠ 0 :=
  ne_of_gt (lt_of_lt_of_le zero_lt_one (le_max_right y 1))

/-- Off zero, one over `d` is the inverse of `d`. -/
theorem one_div (d : EReal) (hd : d ≠ 0) : Ideal.div 1 d = d⁻¹ := by
  unfold Ideal.div
  rw [if_neg hd, one_mul]

/-- Off zero, multiplying by the reciprocal is dividing. -/
theorem mul_recip (x d : EReal) (hd : d ≠ 0) : x * Ideal.div 1 d = Ideal.div x d := by
  unfold Ideal.div
  rw [if_neg hd, if_neg hd, one_mul]

/-- The host's entrywise quotient at an index. -/
theorem host_divf_apply {s : Shape} {φ : FTy} (a b : FVec Ideal s φ) (i : s.Idx) :
    Host.divf a b i = Ideal.div (a i) (b i) := rfl

end Cert.LibRecip
-- ==== Proof.Algebra.lean ====
/-
  The one law that joins the two programs, on the extended reals. The kernel scales an edge's centred score x = v - min v
  by a precomputed reciprocal 1 / d of the range d = max v - min v; the reference divides x by d. Off zero a quotient by d
  is the product with the inverse of d, for every extended real x, so the two agree whenever d ≠ 0; and a difference of two
  extended reals is zero only when they are the same real, so d ≠ 0 as soon as max v ≠ min v. (At d = 0 the two do differ:
  0 · (1 / 0) = 0 · ⊤ = 0 against the convention 0 / 0 = ⊥ — the corner the certificate's domain excludes.)
-/
import proofs.«174092_j62182536511750_2_alg».proof.Proof.LibRecip
import Idealize.ShloMosaic.PureOps.Ideal

namespace Cert.Algebra

open Idealize.ShloMosaic

/-- A difference of extended reals that vanishes is a difference of equal terms. -/
theorem eq_of_sub_eq_zero {a b : EReal} (h : a - b = 0) : a = b := by
  induction a using EReal.rec with
  | bot => induction b using EReal.rec with
    | bot => rfl
    | coe y => exact absurd h (by simp)
    | top => exact absurd h (by simp)
  | coe x => induction b using EReal.rec with
    | bot => exact absurd h (by simp)
    | coe y =>
      have h' : ((x - y : ℝ) : EReal) = ((0 : ℝ) : EReal) := by rw [EReal.coe_sub]; exact h
      have := EReal.coe_eq_coe_iff.mp h'
      exact congrArg _ (sub_eq_zero.mp this)
    | top => exact absurd h (by simp)
  | top => induction b using EReal.rec with
    | bot => exact absurd h (by simp)
    | coe y => exact absurd h (by simp)
    | top => exact absurd h (by simp)

/-- Distinct extended reals have a nonzero difference. -/
theorem sub_ne_zero_of_ne {a b : EReal} (h : a ≠ b) : a - b ≠ 0 := fun h0 => h (eq_of_sub_eq_zero h0)

/-- The f32 word 0x3F800000 is the number one. -/
theorem one_word : Ideal.ofBits .f32 0x3F800000#32 = 1 := by
  simp [Ideal.ofBits, Ideal.ieee, -EReal.coe_mul]; norm_num

/-- Scaling the centred score by the reciprocal of a nonzero range is dividing by the range; so the edge weights agree. -/
theorem weight_eq (v lo hi : EReal) (h : hi ≠ lo) :
    Ideal.exp ((v - lo) * Ideal.div (Ideal.ofBits .f32 0x3F800000#32) (hi - lo)) = Ideal.exp (Ideal.div (v - lo) (hi - lo)) := by
  rw [one_word, Cert.LibRecip.mul_recip _ _ (sub_ne_zero_of_ne h)]

/-- The comparison "not equal" answering one means the two are different. -/
theorem ne_of_cmp_une {x y : EReal} (h : Ideal.cmp .une x y = 1#1) : x ≠ y := by
  intro hxy
  subst hxy
  simp [Ideal.cmp] at h

end Cert.Algebra
-- ==== Proof.PreFacts.lean ====
/-
  What the certificate's domain says about the edge scores. The precondition is a conjunction whose last conjunct computes
  the reference's raw edge scores from the inputs — X' = X·W, the two score halves, the gathers at the wrapped row and
  column indices, leaky_relu spelt as a select — and compares their maximum with their minimum for inequality. The chain
  is, operation by operation, the reference's own, so the conjunct says: max v ≠ min v for the layer's scores v. The
  printed predicate comes in three consecutive parts; each is matched against the specification's stages on its own.
-/
import proofs.«174092_j62182536511750_2_alg».proof.Pre_finite_inputs
import proofs.«174092_j62182536511750_2_alg».proof.Proof.Spec
import proofs.«174092_j62182536511750_2_alg».proof.Proof.Algebra
import Idealize.ShloMosaic.Lib.Affine
import Idealize.ShloMosaic.Lib.ValueIdx

namespace Cert.PreFacts

open Idealize.ShloMosaic Idealize.ShloMosaic.ValueIdx
open Cert.ReferenceIdeal (Spec.xprime Spec.score Spec.wrap Spec.leaky Spec.vmin Spec.vmax Spec.scores)

variable [Cert.Pre_finite_inputs.Facts] [Cert.ReferenceIdeal.Facts]

/-- The float comparison "not equal" answering one means the two extended reals are different. -/
theorem ne_of_cmpf_une {x y : EReal} (h : FloatOps.cmpf (F := Ideal) (φ := .f32) .une x y = 1#1) : x ≠ y :=
  Cert.Algebra.ne_of_cmp_une h

/-- The last part: if it answers one, the greatest and the least of the score vector it was handed differ. -/
theorem part2_ne (a0 a1 : FVec Ideal Cert.ReferenceIdeal.S1x32 .f32) (v : FVec Ideal Cert.ReferenceIdeal.S1600000 .f32)
    (p : IVec Cert.Pre_finite_inputs.S_ 1)
    (h : Cert.Pre_finite_inputs.fn_part2 (F := Ideal) a0 a1 v p = fun _ => 1#1) :
    Spec.vmax (F := Ideal) v ix0 ≠ Spec.vmin (F := Ideal) v ix0 := by
  have h0 := congrFun h ix0
  dsimp only [Cert.Pre_finite_inputs.fn_part2] at h0
  have h1 := (IntOp.andi_eq_one.1 h0).2
  rw [cmpf_apply] at h1
  exact ne_of_cmpf_une h1

/-- The middle part hands the last one the leaky_relu of the sum of the first gathered half and the second half gathered
    at the wrapped column indices. -/
theorem part1_eq (X : FVec Ideal Cert.ReferenceIdeal.S50000x128 .f32) (Wt : FVec Ideal Cert.ReferenceIdeal.S128x32 .f32)
    (a0 a1 : FVec Ideal Cert.ReferenceIdeal.S1x32 .f32) (col : IVec Cert.ReferenceIdeal.S1600000 32)
    (s1 : FVec Ideal Cert.ReferenceIdeal.S50000 .f32) (g0 : FVec Ideal Cert.ReferenceIdeal.S1600000 .f32) :
    ∃ p, Cert.Pre_finite_inputs.fn_part1 (F := Ideal) X Wt a0 a1 col s1 g0
        (cmpi .slt col (broadcastInDim Cert.Pre_finite_inputs.S1600000 ![] Cert.Pre_finite_inputs.Facts.bcast_S_S1600000 (constantI Cert.Pre_finite_inputs.S_ 32 0#32)))
        (addi col (broadcastInDim Cert.Pre_finite_inputs.S1600000 ![] Cert.Pre_finite_inputs.Facts.bcast_S_S1600000 (constantI Cert.Pre_finite_inputs.S_ 32 50000#32)))
      = Cert.Pre_finite_inputs.fn_part2 (F := Ideal) a0 a1
          (Spec.leaky (F := Ideal) (addf g0 (Host.gather Cert.ReferenceIdeal.gather_S50000_S1600000x1_S1600000_n_0_n_n_0_1_1 s1 (Spec.wrap col)))) p :=
  ⟨_, rfl⟩

/-- The first part computes X', the two score halves and the first gather, and hands them on. -/
theorem fn_eq (X : FVec Ideal Cert.ReferenceIdeal.S50000x128 .f32) (Wt : FVec Ideal Cert.ReferenceIdeal.S128x32 .f32)
    (a0 a1 : FVec Ideal Cert.ReferenceIdeal.S1x32 .f32) (row col : IVec Cert.ReferenceIdeal.S1600000 32) :
    Cert.Pre_finite_inputs.fn (F := Ideal) X Wt a0 a1 row col
      = Cert.Pre_finite_inputs.fn_part1 (F := Ideal) X Wt a0 a1 col (Spec.score (Spec.xprime X Wt) a1)
          (Host.gather Cert.ReferenceIdeal.gather_S50000_S1600000x1_S1600000_n_0_n_n_0_1_1 (Spec.score (Spec.xprime X Wt) a0) (Spec.wrap row))
          (cmpi .slt col (broadcastInDim Cert.Pre_finite_inputs.S1600000 ![] Cert.Pre_finite_inputs.Facts.bcast_S_S1600000 (constantI Cert.Pre_finite_inputs.S_ 32 0#32)))
          (addi col (broadcastInDim Cert.Pre_finite_inputs.S1600000 ![] Cert.Pre_finite_inputs.Facts.bcast_S_S1600000 (constantI Cert.Pre_finite_inputs.S_ 32 50000#32))) :=
  rfl

/-- Under the precondition the greatest and the least edge score differ. -/
theorem range_ne (X : FVec Ideal Cert.ReferenceIdeal.S50000x128 .f32) (Wt : FVec Ideal Cert.ReferenceIdeal.S128x32 .f32)
    (a0 a1 : FVec Ideal Cert.ReferenceIdeal.S1x32 .f32) (row col : IVec Cert.ReferenceIdeal.S1600000 32)
    (h : Cert.Pre_finite_inputs.fn (F := Ideal) X Wt a0 a1 row col = fun _ => 1#1) :
    Spec.vmax (F := Ideal) (Spec.scores X Wt a0 a1 row col) ix0 ≠ Spec.vmin (F := Ideal) (Spec.scores X Wt a0 a1 row col) ix0 := by
  rw [fn_eq] at h
  obtain ⟨p, hp⟩ := part1_eq X Wt a0 a1 col (Spec.score (Spec.xprime X Wt) a1)
    (Host.gather Cert.ReferenceIdeal.gather_S50000_S1600000x1_S1600000_n_0_n_n_0_1_1 (Spec.score (Spec.xprime X Wt) a0) (Spec.wrap row))
  rw [hp] at h
  exact part2_ne a0 a1 _ p h

end Cert.PreFacts
-- ==== Proof.Bridge.lean ====
/-
  The idealized kernel computes the layer. From the launch memory: the first tiled pass leaves X' = X·W and the two score
  columns, block by block the same finite sums the reference's product and row sums are; the host stages in between are
  the reference's own, so the raw edge scores v are the specification's; the second pass leaves, per edge,
  exp ((v e - min v) · (1 / (max v - min v))) and its product with the neighbour's row — and on the certificate's domain
  max v ≠ min v, where multiplying by the reciprocal of the range is dividing by it, so these are the specification's edge
  weights and weighted rows; the host stages after it are again the reference's own. Hence the result buffer holds the
  layer `Spec.out` of the six arguments.
-/
import proofs.«174092_j62182536511750_2_alg».proof.Defs
import proofs.«174092_j62182536511750_2_alg».proof.Proof.Gen.Pre_finite_inputs
import proofs.«174092_j62182536511750_2_alg».proof.Proof.Chain
import proofs.«174092_j62182536511750_2_alg».proof.Proof.K1Value
import proofs.«174092_j62182536511750_2_alg».proof.Proof.K2Value
import proofs.«174092_j62182536511750_2_alg».proof.Proof.Layout
import proofs.«174092_j62182536511750_2_alg».proof.Proof.Algebra
import proofs.«174092_j62182536511750_2_alg».proof.Proof.PreFacts

set_option maxRecDepth 16384

noncomputable section

namespace Cert.KernelIdeal.Bridge

open Idealize.ShloMosaic Idealize.ShloMosaic.TcCoe Idealize.SL.Sem Idealize.ShloMosaic.ValueIdx
open Cert.KernelIdeal Cert.KernelIdeal.Gen Cert.KernelIdeal.Chain
open Cert.ReferenceIdeal (Spec.xprime Spec.score Spec.raw Spec.vmin Spec.vmax Spec.att Spec.gathered Spec.weighted Spec.normalize
  Spec.hsum Spec.rowsSum Spec.finish Spec.scores Spec.out)

variable (m : (ℓ : Loc nD τ sig) → Buf (Elt Ideal) ℓ) (ρ : Dev nD → PrngReg) (c : Dev nD)

/-- The six argument arrays at launch. -/
abbrev aX : FVec Ideal S50000x128 .f32 := m ((c.tc : Thread nD τ).loc main_arg0)
abbrev aW : FVec Ideal S128x32 .f32 := m ((c.tc : Thread nD τ).loc main_arg1)
abbrev aA0 : FVec Ideal S1x32 .f32 := m ((c.tc : Thread nD τ).loc main_arg2)
abbrev aA1 : FVec Ideal S1x32 .f32 := m ((c.tc : Thread nD τ).loc main_arg3)
abbrev aRow : IVec S1600000 32 := m ((c.tc : Thread nD τ).loc main_arg4)
abbrev aCol : IVec S1600000 32 := m ((c.tc : Thread nD τ).loc main_arg5)

/-- The layer's raw edge scores of the launch arguments. -/
abbrev sc : FVec Ideal S1600000 .f32 := Spec.scores (F := Ideal) (aX m c) (aW m c) (aA0 m c) (aA1 m c) (aRow m c) (aCol m c)

/-- The first pass leaves X'. -/
theorem xp_eq : W1 m ρ c (Proc.devRef .tc main_v0_0) = Spec.xprime (F := Ideal) (aX m c) (aW m c) :=
  (W1_xp m ρ c).trans (Cert.KernelIdeal.K1.xprime_eq (V0 m ρ) c)

/-- The first score column, recast, is the first score half. -/
theorem s0_eq : s0vec m ρ c = Spec.score (F := Ideal) (Spec.xprime (aX m c) (aW m c)) (aA0 m c) := by
  funext i
  obtain ⟨r, rfl⟩ : ∃ r : Fin 50000, i = ix1 r := ⟨i 0, eq_ix1 i⟩
  refine (Cert.Layout.cast_col_vec _ _ r).trans ?_
  rw [W1_s0]
  exact Cert.KernelIdeal.K1.s0_eq (V0 m ρ) c r

/-- The second score column, recast, is the second score half. -/
theorem s1_eq : s1vec m ρ c = Spec.score (F := Ideal) (Spec.xprime (aX m c) (aW m c)) (aA1 m c) := by
  funext i
  obtain ⟨r, rfl⟩ : ∃ r : Fin 50000, i = ix1 r := ⟨i 0, eq_ix1 i⟩
  refine (Cert.Layout.cast_col_vec _ _ r).trans ?_
  rw [W1_s1]
  exact Cert.KernelIdeal.K1.s1_eq (V0 m ρ) c r

/-- The host's raw edge scores are the layer's. -/
theorem kraw_eq : kraw m ρ c = sc m c := by
  unfold kraw
  rw [s0_eq, s1_eq, W1_arg4, W1_arg5]
  rfl

/-- The host's entrywise exponential at an index. -/
theorem host_exp_apply {s : Shape} (x : FVec Ideal s .f32) (i : s.Idx) : Host.exp x i = Ideal.exp (x i) := rfl

/-- The specification's edge weight at an edge, entry by entry. -/
theorem att_at (v : FVec Ideal S1600000 .f32) (e : Fin 1600000) :
    Spec.att (F := Ideal) v (ix1 e)
      = Ideal.exp (Ideal.div (v (ix1 e) - Spec.vmin (F := Ideal) v ix0) (Spec.vmax (F := Ideal) v ix0 - Spec.vmin (F := Ideal) v ix0)) := by
  generalize hlo : Spec.vmin (F := Ideal) v = lo
  generalize hhi : Spec.vmax (F := Ideal) v = hi
  unfold Spec.att
  rw [hlo, hhi, host_exp_apply, Cert.LibRecip.host_divf_apply, subf_apply, Cert.Layout.bcast_scalar_vec,
    Cert.Layout.bcast_scalar_vec, subf_apply]

/-- The specification's weighted row at an edge and a feature, entry by entry. -/
theorem weighted_at (a : FVec Ideal S1600000 .f32) (xg : FVec Ideal S1600000x32 .f32) (e : Fin 1600000) (j : Fin 32) :
    Spec.weighted (F := Ideal) a xg (ix2 e j) = a (ix1 e) * xg (ix2 e j) := by
  unfold Spec.weighted
  rw [mulf_apply, Cert.Layout.bcast_col_mat, Cert.Layout.bcast_vec_col]

/-- The second pass's score operand at an edge is the layer's raw score there. -/
theorem raw_at (e : Fin 1600000) : sc m c (ix1 e) = V4 m ρ c main_v23 (ix2 e 0) := by
  rw [raw_col, kraw_eq]
  exact (Cert.Layout.bcast_vec_col _ _ e 0).symm

/-- Its 1×1 minimum operand holds the least score. -/
theorem vmin_at : Spec.vmin (F := Ideal) (sc m c) ix0 = V4 m ρ c main_v20 Cert.KernelIdeal.K2.z := by
  rw [vmin_11, kraw_eq]
  exact (Cert.Layout.cast_scalar_11 _ _).symm

/-- Its 1×1 maximum operand holds the greatest score. -/
theorem vmax_at : Spec.vmax (F := Ideal) (sc m c) ix0 = V4 m ρ c main_v22 Cert.KernelIdeal.K2.z := by
  rw [vmax_11, kraw_eq]
  exact (Cert.Layout.cast_scalar_11 _ _).symm

/-- Its row operand at an edge and a feature is the neighbour's entry of X'. -/
theorem xg_at (e : Fin 1600000) (j : Fin 32) :
    Spec.gathered (F := Ideal) (Spec.xprime (aX m c) (aW m c)) (aCol m c) (ix2 e j) = V4 m ρ c main_v30 (ix2 e j) := by
  rw [xg_eq, xp_eq, W1_arg5]

/-- What the second pass leaves per edge is the specification's edge weight, on the certificate's domain. -/
theorem att_entry (hpre : Cert.Pre_KernelIdeal m) (e : Fin 1600000) :
    (dat1 (V4 m ρ) c).arrAt 4 cfg1.N (ix2 e 0) = Spec.att (F := Ideal) (sc m c) (ix1 e) := by
  have hne := Cert.PreFacts.range_ne (aX m c) (aW m c) (aA0 m c) (aA1 m c) (aRow m c) (aCol m c) (hpre c)
  refine (Cert.KernelIdeal.K2.att_eq_of (V4 m ρ) c e _ _ _ (raw_at m ρ c e) (vmin_at m ρ c) (vmax_at m ρ c)).trans ?_
  rw [att_at]
  exact Cert.Algebra.weight_eq (sc m c (ix1 e)) (Spec.vmin (F := Ideal) (sc m c) ix0) (Spec.vmax (F := Ideal) (sc m c) ix0) hne

/-- The edge-weight column the second pass leaves, recast as a vector, is the specification's edge weights. -/
theorem att_vec (hpre : Cert.Pre_KernelIdeal m) :
    shapeCast S1600000 (W5 m ρ c (Proc.devRef .tc main_v31_0)) shapeCasts_S1600000x1_S1600000 = Spec.att (F := Ideal) (sc m c) := by
  funext i
  obtain ⟨e, rfl⟩ : ∃ e : Fin 1600000, i = ix1 e := ⟨i 0, eq_ix1 i⟩
  refine (Cert.Layout.cast_col_vec _ _ e).trans ?_
  rw [W5_att]
  exact att_entry m ρ c hpre e

/-- The weighted rows the second pass leaves are the specification's. -/
theorem wt_eq (hpre : Cert.Pre_KernelIdeal m) :
    W5 m ρ c (Proc.devRef .tc main_v31_1)
      = Spec.weighted (F := Ideal) (Spec.att (sc m c)) (Spec.gathered (Spec.xprime (aX m c) (aW m c)) (aCol m c)) := by
  have hne := Cert.PreFacts.range_ne (aX m c) (aW m c) (aA0 m c) (aA1 m c) (aRow m c) (aCol m c) (hpre c)
  funext i
  obtain ⟨e, j, rfl⟩ : ∃ (e : Fin 1600000) (j : Fin 32), i = ix2 e j := ⟨i 0, i 1, eq_ix2 i⟩
  rw [W5_wt]
  refine (Cert.KernelIdeal.K2.weighted_eq_of (V4 m ρ) c e j _ _ _ _ (raw_at m ρ c e) (vmin_at m ρ c) (vmax_at m ρ c) (xg_at m ρ c e j)).trans ?_
  rw [weighted_at, att_at,
    Cert.Algebra.weight_eq (sc m c (ix1 e)) (Spec.vmin (F := Ideal) (sc m c) ix0) (Spec.vmax (F := Ideal) (sc m c) ix0) hne]

/-- On the certificate's domain the idealized kernel's result buffer ends at the layer of the launch arguments. -/
theorem value (hpre : Cert.Pre_KernelIdeal m) :
    W6 m ρ c (Proc.devRef .tc main_v41) = Spec.out (F := Ideal) (aX m c) (aW m c) (aA0 m c) (aA1 m c) (aRow m c) (aCol m c) := by
  rw [result_eq, W5_arg4, att_vec m ρ c hpre, wt_eq m ρ c hpre]
  rfl

end Cert.KernelIdeal.Bridge

end
-- ==== Proof.lean ====
/- The proof of `Cert.Claim` (proofs.«174092_j62182536511750_2_alg».proof.Defs): a graph-attention layer — X' = X·W, per-edge scores
   leaky_relu (a0·X'[row] + a1·X'[col]) min-max normalised and exponentiated, then per destination node the weighted mean of
   the neighbours' X' rows — computed by a kernel of two tiled passes among host gathers, folds and scatter-adds, against the
   plain reference, on the domain where the edge scores are not all equal (there the reference's own normalisation is 0 / 0).

   The three frames: the two kernel programs' runs are the generated frame certificates; the reference's is its run with the
   result dropped (Proof/RefRun.lean). `preserves` is trivial: the idealization rewrote nothing. `algebraic`: at the ideal
   instance the kernel's result buffer ends at the last boundary's contents (Proof/KRun.lean), which are the layer
   `Spec.out` of the launch arguments (Proof/Bridge.lean, over the two passes' values Proof/K1Value.lean and
   Proof/K2Value.lean, the host stages Proof/Chain.lean, the one law x · (1/d) = x / d for d ≠ 0 Proof/Algebra.lean and the
   domain's max v ≠ min v Proof/PreFacts.lean); the reference's result is `Spec.out` of its arguments by unfolding
   (Proof/RefRun.lean over Proof/Spec.lean); and the arguments agree. -/
import proofs.«174092_j62182536511750_2_alg».proof.Defs
import proofs.«174092_j62182536511750_2_alg».proof.Proof.Gen.Kernel
import proofs.«174092_j62182536511750_2_alg».proof.Proof.Gen.Kernel.Skeleton
import proofs.«174092_j62182536511750_2_alg».proof.Proof.Gen.Kernel.Launch
import proofs.«174092_j62182536511750_2_alg».proof.Proof.Gen.Kernel.Points
import proofs.«174092_j62182536511750_2_alg».proof.Proof.Gen.Kernel.Frame
import proofs.«174092_j62182536511750_2_alg».proof.Proof.Gen.KernelIdeal
import proofs.«174092_j62182536511750_2_alg».proof.Proof.Gen.KernelIdeal.Skeleton
import proofs.«174092_j62182536511750_2_alg».proof.Proof.Gen.KernelIdeal.Launch
import proofs.«174092_j62182536511750_2_alg».proof.Proof.Gen.KernelIdeal.Points
import proofs.«174092_j62182536511750_2_alg».proof.Proof.Gen.KernelIdeal.Frame
import proofs.«174092_j62182536511750_2_alg».proof.Proof.Gen.ReferenceIdeal
import proofs.«174092_j62182536511750_2_alg».proof.Proof.Gen.Pre_finite_inputs
import proofs.«174092_j62182536511750_2_alg».proof.Proof.KRun
import proofs.«174092_j62182536511750_2_alg».proof.Proof.RefRun
import proofs.«174092_j62182536511750_2_alg».proof.Proof.Bridge
import Idealize.ShloMosaic.Adequacy
import Idealize.ShloMosaic.Init

noncomputable section

namespace Cert.Proof

open Idealize.ShloMosaic Idealize.SL.Sem

/-- The word-level kernel runs and keeps its arguments: the generated frame certificate. -/
theorem frame_k : Cert.frame_Kernel := fun m ρ _ => Cert.Kernel.Gen.frame m ρ

/-- The idealized kernel runs and keeps its arguments: the generated frame certificate. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Both idealized programs end at the layer of their (agreeing) arguments. -/
theorem algebraic : Cert.algebraic_KernelIdeal_ReferenceIdeal := by
  intro m ρ m' ρ' hpre hagree
  refine ⟨fun c => Cert.ReferenceIdeal.Spec.out (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Bridge.value m ρ c hpre), (h c).2⟩)
      (Cert.KernelIdeal.KRun.run_result (F := Ideal) m ρ)
  · refine (θ_run Cert.ReferenceIdeal.defs _ _).mono (fun _ h c => ⟨(h c).1.trans ?_, (h c).2⟩)
      (Cert.ReferenceIdeal.RefRun.run (F := Ideal) m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
